-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16x16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S2x10000x10000 .f32) (main_arg2 : FVec F S128x16 .f32) (main_arg3 : FVec F S16 .f32) (main_arg4 : FVec F S16x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S1x400x10000 : Shape := ⟨3, ![1, 400, 10000]⟩
abbrev S400x16 : Shape := ⟨2, ![400, 16]⟩
abbrev S400x10000 : Shape := ⟨2, ![400, 10000]⟩
abbrev S400 : Shape := ⟨1, ![400]⟩
abbrev S400x1 : Shape := ⟨2, ![400, 1]⟩

abbrev nBuf : Space → Nat
  | .hbm => 10
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S10000x16, .f32⟩
  | .hbm, ⟨9, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S1x16, .f32⟩
  | .local _ .vmem, ⟨3, _⟩ => ⟨S16x16, .f32⟩
  | .local _ .vmem, ⟨4, _⟩ => ⟨S1x400x10000, .f32⟩
  | .local _ .vmem, ⟨5, _⟩ => ⟨S1x400x10000, .f32⟩
  | .local _ .vmem, ⟨6, _⟩ => ⟨S400x16, .f32⟩
  | .local _ .vmem, ⟨7, _⟩ => ⟨S400x16, .f32⟩
  | .local _ .vmem, ⟨8, _⟩ => ⟨S10000x16, .f32⟩
  | .local _ .vmem, ⟨9, _⟩ => ⟨S1x16, .f32⟩
  | .local _ .vmem, ⟨10, _⟩ => ⟨S1x400x10000, .f32⟩
  | .local _ .vmem, ⟨11, _⟩ => ⟨S1x400x10000, .f32⟩
  | .local _ .vmem, ⟨12, _⟩ => ⟨S10000x16, .f32⟩
  | .local _ .vmem, ⟨13, _⟩ => ⟨S400x16, .f32⟩
  | .local _ .vmem, ⟨14, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x16_S16x16_0_0 : ∀ a, (![0, 0] : Fin 2 → Nat) a + S16x16.size a ≤ S16x16.size a
  h_S16x16 : 0 < S16x16.numel
  inb_S400x16_S400x16_0_0 : ∀ a, (![0, 0] : Fin 2 → Nat) a + S400x16.size a ≤ S400x16.size a
  h_S400x16 : 0 < S400x16.numel
  reduces_S400x16_S400 : S400x16.Reduces [1] S400
  shapeCasts_S400_S400x1 : S400.ShapeCasts S400x1
  broadcasts_S400x1_S400x16 : S400x1.Broadcasts S400x16
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x16_S400x16_1_0_0_1_n_n_wf : DotDims.WF S400x16 S16x16 S400x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x400x10000.size a ≤ S2x10000x10000.size a
  hwx0_4 : ∀ i : grid0.Coords, EltTy.bits .f32 = 32 ∨ (Rect.block (s := S2x10000x10000) S1x400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x16.size a ≤ S1x16.size a
  hwx1_0 : ∀ i : grid1.Coords, EltTy.bits .f32 = 32 ∨ (Rect.block (s := S1x16) S1x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x400x10000.size a ≤ S2x10000x10000.size a
  hwx1_1 : ∀ i : grid1.Coords, EltTy.bits .f32 = 32 ∨ (Rect.block (s := S2x10000x10000) S1x400x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S10000x16.size a
  hwx1_2 : ∀ i : grid1.Coords, EltTy.bits .f32 = 32 ∨ (Rect.block (s := S10000x16) S10000x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x16.size a ≤ S10000x16.size a
  hwx1_3 : ∀ i : grid1.Coords, EltTy.bits .f32 = 32 ∨ (Rect.block (s := S10000x16) S400x16.size (cc1_transform_3 i) (hinb1_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x16_S400x16_1_0_0_1_n_n : DotDims S400x16 S16x16 S400x16 where
  lhsContracting := [1]
  rhsContracting := [0]
  lhsNonContracting := [0]
  rhsNonContracting := [1]
  lhsBatch := []
  rhsBatch := []
  wf := dot_S400x16_S16x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S1x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x400x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S10000x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S400x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x10000x10000 : Shape := ⟨3, ![1, 10000, 10000]⟩
abbrev S10000x10000 : Shape := ⟨2, ![10000, 10000]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 43
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S1x10000x10000, .f32⟩
  | .hbm, ⟨8, _⟩ => ⟨S10000x10000, .f32⟩
  | .hbm, ⟨9, _⟩ => ⟨S10000x16, .f32⟩
  | .hbm, ⟨10, _⟩ => ⟨S1x16, .f32⟩
  | .hbm, ⟨11, _⟩ => ⟨S10000x16, .f32⟩
  | .hbm, ⟨12, _⟩ => ⟨S10000x16, .f32⟩
  | .hbm, ⟨13, _⟩ => ⟨S_, .f32⟩
  | .hbm, ⟨14, _⟩ => ⟨S_, .f32⟩
  | .hbm, ⟨15, _⟩ => ⟨S10000x16, .f32⟩
  | .hbm, ⟨16, _⟩ => ⟨S10000x16, .i1⟩
  | .hbm, ⟨17, _⟩ => ⟨S_, .f32⟩
  | .hbm, ⟨18, _⟩ => ⟨S10000x16, .f32⟩
  | .hbm, ⟨19, _⟩ => ⟨S10000x16, .f32⟩
  | .hbm, ⟨20, _⟩ => ⟨S10000x16, .f32⟩
  | .hbm, ⟨21, _⟩ => ⟨S10000x16, .f32⟩
  | .hbm, ⟨22, _⟩ => ⟨S1x10000x10000, .f32⟩
  | .hbm, ⟨23, _⟩ => ⟨S10000x10000, .f32⟩
  | .hbm, ⟨24, _⟩ => ⟨S10000x16, .f32⟩
  | .hbm, ⟨25, _⟩ => ⟨S1x16, .f32⟩
  | .hbm, ⟨26, _⟩ => ⟨S10000x16, .f32⟩
  | .hbm, ⟨27, _⟩ => ⟨S10000x16, .f32⟩
  | .hbm, ⟨28, _⟩ => ⟨S_, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x16, .f32⟩
  | .hbm, ⟨35, _⟩ => ⟨S10000x16, .f32⟩
  | .hbm, ⟨36, _⟩ => ⟨S10000x16, .f32⟩
  | .hbm, ⟨37, _⟩ => ⟨S_, .f32⟩
  | .hbm, ⟨38, _⟩ => ⟨S10000, .f32⟩
  | .hbm, ⟨39, _⟩ => ⟨S10000x1, .f32⟩
  | .hbm, ⟨40, _⟩ => ⟨S10000x1, .f32⟩
  | .hbm, ⟨41, _⟩ => ⟨S10000x16, .f32⟩
  | .hbm, ⟨42, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_cst : Ref sig .tc := ⟨.hbm, 28, rfl⟩
abbrev main_call1_v0 : Ref sig .tc := ⟨.hbm, 29, rfl⟩
abbrev main_call1_cst_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_v15 : Ref sig .tc := ⟨.hbm, 42, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  slices_S2x10000x10000_S1x10000x10000_1_0_0 : S2x10000x10000.Slices ![1, 0, 0] S1x10000x10000
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.LibWholeRect.lean ====
/-
  Whole-buffer rectangles.

  A kernel body that loads or stores a whole buffer does it through the rectangle at offset zero whose extents are the
  buffer's own. Every index of the shape lies in that rectangle; one store through it leaves exactly its payload, whatever
  the buffer held before; and a whole memref read through it gives back its contents.
-/
import Idealize.ShloMosaic.Lib.Pipeline.Frame
import Idealize.ShloMosaic.Lib.Pipeline.FrameBody
import Idealize.ShloMosaic.Lib.Pipeline.Value

noncomputable section

namespace Cert.Lib

open Idealize.ShloMosaic

variable {sig : RefSig} {Val : EltTy → Type}

/-- The printed zero offsets of ranks two and three are the zero function. -/
theorem off2_zero : (![0, 0] : Fin 2 → ℕ) = fun _ => 0 := by funext a; fin_cases a <;> rfl
theorem off3_zero : (![0, 0, 0] : Fin 3 → ℕ) = fun _ => 0 := by funext a; fin_cases a <;> rfl

/-- Every index of a shape lies in the rectangle at offset zero of the shape's own extents. -/
theorem mem_unit_zero {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- One store through that rectangle leaves its payload, whatever the buffer held. -/
theorem read_write_whole [∀ e, Nonempty (Val e)] {κ : Kind} {sp : Space} {S : Shape} {e : EltTy} (v : View sig κ sp S e)
    (f : v.ty.Contents Val) {off : Fin S.rank → ℕ} (h : off = fun _ => 0) (inb : ∀ a, off a + S.size a ≤ S.size a)
    (w : S.Idx → Val e) :
    v.read Val (v.writes Val f [(⟨Rect.unit off S.size inb, w⟩ : View.Piece Val S e)]) = w := by
  rw [View.read_writes_eq_canon _ _ _ (fun y => ⟨_, List.mem_singleton_self _, mem_unit_zero h inb y⟩), View.canon_unit_zero h]

/-- A whole memref read through that rectangle is its contents. -/
theorem readAt_whole {κ : Kind} {sp : Space} {S : Shape} {e : EltTy} (M : Memref sig κ sp S e) (hM : M.IsWhole)
    {off : Fin S.rank → ℕ} (h : off = fun _ => 0) (inb : ∀ a, off a + S.size a ≤ S.size a) (x : S.Idx → Val e) :
    View.readAt Val M.view (Rect.unit off S.size inb).toLoadRect (hM.unread x) = x := by
  rw [View.readAt_eq_ld, hM.read_unread, View.ld_unit_zero h]

end Cert.Lib

end
-- ==== Proof.OnBits.Layer1Body.lean ====
/-
  The first graph-convolution layer as one pipelined kernel region, on whole memrefs: what its body does at one grid
  point. The grid walks 25 blocks of 400 rows of the first adjacency matrix. A scratch buffer carries `x · W1` from the
  first point to all later ones; the output block at a point is `leaky (A-block · scratch + b1) · W2`.
-/
import proofs.«121101_g50766513438939_cont_8to1c4_522_2_alg».proof.Proof.Gen.Kernel.Launch
import proofs.«121101_g50766513438939_cont_8to1c4_522_2_alg».proof.Proof.Gen.Kernel.Skeleton
import proofs.«121101_g50766513438939_cont_8to1c4_522_2_alg».proof.Proof.Gen.Kernel.Points
import proofs.«121101_g50766513438939_cont_8to1c4_522_2_alg».proof.Proof.LibWholeRect
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Layer1Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Lib

variable {F : FTy → Type} [FloatOps F]

local notation "𝕄" => MT nD τ sig Unit (Elt F) ℕ (UR sig nD τ) ℕ

/-! ## The branch on the grid position -/

/-- The body's one conditional: it is taken at the first grid point only. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- No window of the first layer's pipeline is ever idle. -/
theorem live0 : ∀ (w : Fin cfg0.W) (t : Fin cfg0.N), cfg0.idle w (grid0.coords t) = false := by decide +kernel

/-! ## The body on whole memrefs

At the first grid point the body fills the scratch with `x · W1` and then uses it; at every later point it finds the
scratch as the first point left it. Either way the output block is the second payload of the blocks and the scratch. -/

set_option maxHeartbeats 1000000 in
/-- The first point: the scratch may hold anything; it ends at the first payload of `x` and `W1`. -/
theorem body_first (c : Dev nD) (E : Set ℕ) (i : grid0.Coords) (hc : isFirst i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x16 .f32) (harg4 : arg4.IsWhole)
    (arg5 : Memref sig .tc .vmem S1x400x10000 .f32) (harg5 : arg5.IsWhole) (arg6 : Memref sig .tc .vmem S400x16 .f32) (harg6 : arg6.IsWhole)
    (arg7 : Memref sig .tc .vmem S10000x16 .f32) (harg7 : arg7.IsWhole)
    (x1 : Vec F S10000x128 .f32) (x2 : Vec F S128x16 .f32) (x3 : Vec F S1x16 .f32) (x4 : Vec F S16x16 .f32) (x5 : Vec F S1x400x10000 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k0_pay2 x5 (k0_pay1 x1 x2) x3 x4)
            ∗ owns (c : Thread nD τ) arg7 fullShare (k0_pay1 x1 x2)) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hc)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_write_whole _ _ off2_zero, View.readCov_unit_zero _ off2_zero, readAt_whole _ harg1 off2_zero, readAt_whole _ harg2 off2_zero,
      readAt_whole _ harg3 off2_zero, readAt_whole _ harg4 off2_zero, readAt_whole _ harg5 off3_zero]
  · iexists _; isplitr
    swap; · iexact H7
    ipureintro
    rw [read_write_whole _ _ off2_zero, readAt_whole _ harg1 off2_zero, readAt_whole _ harg2 off2_zero]

set_option maxHeartbeats 1000000 in
/-- A later point: the scratch holds `s` and keeps it. -/
theorem body_later (c : Dev nD) (E : Set ℕ) (i : grid0.Coords) (hc : ¬isFirst i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x16 .f32) (harg4 : arg4.IsWhole)
    (arg5 : Memref sig .tc .vmem S1x400x10000 .f32) (harg5 : arg5.IsWhole) (arg6 : Memref sig .tc .vmem S400x16 .f32) (harg6 : arg6.IsWhole)
    (arg7 : Memref sig .tc .vmem S10000x16 .f32) (harg7 : arg7.IsWhole)
    (x1 : Vec F S10000x128 .f32) (x2 : Vec F S128x16 .f32) (x3 : Vec F S1x16 .f32) (x4 : Vec F S16x16 .f32) (x5 : Vec F S1x400x10000 .f32)
    (s : Vec F S10000x16 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare s
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k0_pay2 x5 s x3 x4)
            ∗ owns (c : Thread nD τ) arg7 fullShare s) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7
  sl_exec (disch := exact hc)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_write_whole _ _ off2_zero, readAt_whole _ harg3 off2_zero, readAt_whole _ harg4 off2_zero, readAt_whole _ harg5 off3_zero,
      readAt_whole _ harg7 off2_zero]
  · iexists _; isplitr; · ipureintro; exact harg7.read_unread _
    iexact H7

end Cert.Kernel.Layer1Body

end
-- ==== Proof.OnBits.Layer1.lean ====
/-
  The first layer's pipeline as proof data, at any contents `V` of the buffers when the region is entered: each input
  window's block, the scratch after the first point (`x · W1` of the two whole-array windows), what the body leaves in
  every staging buffer at every point, the region's invariant (before the first point the scoped buffers at anything;
  afterwards the scratch at `x · W1`), and the body obligation at every point.
-/
import proofs.«121101_g50766513438939_cont_8to1c4_522_2_alg».proof.Proof.OnBits.Layer1Body

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Kernel.Layer1Body

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The scratch and the invariant -/

/-- The grid's first point. -/
abbrev t0 : Fin cfg0.N := ⟨0, by decide⟩

/-- What the first point leaves in the scratch, and every later point finds there: `x · W1` of the two whole windows. -/
def sup (c : Dev nD) : Vec F S10000x16 .f32 := k0_pay1 (iblk0 V c 0 t0) (iblk0 V c 1 t0)

/-- The scratch operand as a memref. -/
abbrev scM0 : Memref sig .tc .vmem S10000x16 .f32 := Memref.whole cc0_scratch0

/-- The scoped buffers this region never touches (the second layer's staging buffers), each at anything. -/
abbrev rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's entry invariant spelt out: the scratch at anything, the untouched scoped buffers, the generator register. -/
theorem PhiA0_eq (c : Dev nD) :
    (Pipeline.ΦA spec0 c : sProp 𝕄)
      = iprop(((∃ d, owns (c : Thread nD τ) scM0 fullShare d) ∗ rest6 c) ∗ (∃ r, prngReg c r)) := by
  unfold Pipeline.ΦA; rw [scopedRest0_eq]; simp only [scM0, owns_whole]; rfl

/-- The invariant before position `n`: before the first point the entry invariant; afterwards the same with the scratch
    at `x · W1`. -/
def PhiS (c : Dev nD) : ℕ → sProp 𝕄
  | 0 => Pipeline.ΦA spec0 c
  | _ + 1 => iprop((owns (c : Thread nD τ) scM0 fullShare (sup V c) ∗ rest6 c) ∗ (∃ r, prngReg c r))

theorem PhiS_pos (c : Dev nD) (n : ℕ) (hn : n ≠ 0) :
    PhiS V c n = iprop((owns (c : Thread nD τ) scM0 fullShare (sup V c) ∗ rest6 c) ∗ (∃ r, prngReg c r)) := by
  cases n with
  | zero => exact absurd rfl hn
  | succ n => rfl

/-! ## The proof data -/

/-- The arrays as the region finds them; after the body at point `t` each input's buffer at its block and the output's at
    the second payload of the blocks and the scratch; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 4 t) (sup V c) (iblk0 V c 2 t) (iblk0 V c 3 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = k0_pay2 (iblk0 V c 4 t) (sup V c) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem Phi_castSucc (c : Dev nD) (t : Fin cfg0.N) : (dat0 V c).Φ t.castSucc = PhiS V c t.val := by
  dsimp only [dat0]; simp only [Fin.coe_castSucc]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

theorem leaves0 (c : Dev nD) (w : Fin cfg0.W) (t : Fin cfg0.N) :
    (dat0 V c).leavesExact w t = owns (c : Thread nD τ) ((cfg0.win w).stage (cfg0.slots t w)) fullShare ((dat0 V c).after w t) := by
  unfold Dat.leavesExact; rw [live0 w t]

set_option maxHeartbeats 4000000 in
/-- The body at any point: the inputs' memrefs hold their blocks; at the first point the scratch is filled, at a later one
    it is found as the first point left it; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS V c (t.val + 1) from rfl, PhiS_pos V c (t.val + 1) (Nat.succ_ne_zero _),
    leaves0 V c 0 t, leaves0 V c 1 t, leaves0 V c 2 t, leaves0 V c 3 t, leaves0 V c 4 t, leaves0 V c 5 t,
    after0_0, after0_1, after0_2, after0_3, after0_4, after0_5, Phi_castSucc]
  by_cases hz : t.val = 0
  · obtain rfl : t = t0 := Fin.ext hz
    rw [show PhiS V c (t0 : Fin cfg0.N).val = Pipeline.ΦA spec0 c from rfl, PhiA0_eq]
    iintro ⟨⟨⟨⟨%d7, HS⟩, Hrest⟩, Hg⟩, Ho, ⟨%d0, H0⟩, ⟨%d1, H1⟩, ⟨%d2, H2⟩, ⟨%d3, H3⟩, ⟨%d4, H4⟩, ⟨%d5, H5⟩⟩
    iapply (body_first c Set.univ (grid0.coords t0) ((isFirst_iff t0).mpr rfl) _ _ _ _ _ _ _ _ _ _ _ _ _ _
      (iblk0 V c 0 t0) (iblk0 V c 1 t0) (iblk0 V c 2 t0) (iblk0 V c 3 t0) (iblk0 V c 4 t0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS Hrest Hg]
    · isplitl [HS Hrest]
      · isplitl [HS]
        · unfold sup; iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold sup; iexact H5
  · rw [PhiS_pos V c t.val hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (body_later c Set.univ (grid0.coords t) (fun h => hz ((isFirst_iff t).mp h)) _ _ _ _ _ _ _ _ _ _ _ _ _ _
      (iblk0 V c 0 t) (iblk0 V c 1 t) (iblk0 V c 2 t) (iblk0 V c 3 t) (iblk0 V c 4 t) (sup V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]
        · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation at every point. -/
theorem body_obligation0 (c : Dev nD) : BodyObligation (dat0 (F := F) V c) (defs₀ (F := F)) Variants.none () Set.univ := fun t => by
  rw [bigSep_W0, bigSep_W0]
  exact sound_body0 V c t

/-- After the last point the invariant gives the entry invariant back: the scratch's contents are forgotten. -/
theorem Phi_last (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS, Hrest⟩, Hg⟩
  isplitl [HS Hrest]
  · isplitl [HS]
    · iexists _; iexact HS
    iexact Hrest
  iexact Hg

end Cert.Kernel.Layer1

end
-- ==== Proof.OnBits.Layer2.lean ====
/-
  The second graph-convolution layer as one pipelined kernel region: the grid walks 25 blocks of 400 rows of the second
  adjacency matrix; the output block at a point is the row-wise log-softmax of `A-block · support2 + b2`. Nothing is
  carried between points. Stated at any contents `V` of the buffers when the region is entered: each input window's
  block, what the body leaves in every staging buffer, and the body obligation at every point.
-/
import proofs.«121101_g50766513438939_cont_8to1c4_522_2_alg».proof.Proof.OnBits.Layer1Body

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Kernel.Layer1Body Cert.Lib

variable {F : FTy → Type} [FloatOps F]

local notation "𝕄" => MT nD τ sig Unit (Elt F) ℕ (UR sig nD τ) ℕ

/-! ## The body on whole memrefs -/

set_option maxHeartbeats 1000000 in
/-- The body holds its inputs as they were and leaves the output block at the payload of the three inputs. -/
theorem body2 (c : Dev nD) (E : Set ℕ) (i : grid1.Coords)
    (arg1 : Memref sig .tc .vmem S1x16 .f32) (harg1 : arg1.IsWhole) (arg2 : Memref sig .tc .vmem S1x400x10000 .f32) (harg2 : arg2.IsWhole)
    (arg3 : Memref sig .tc .vmem S10000x16 .f32) (harg3 : arg3.IsWhole) (arg4 : Memref sig .tc .vmem S400x16 .f32) (harg4 : arg4.IsWhole)
    (x1 : Vec F S1x16 .f32) (x2 : Vec F S1x400x10000 .f32) (x3 : Vec F S10000x16 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (k1_pay1 x2 x3 x1)) -∗ K ⟨⟩))
      ⊢ wp frame (wpE (defs₀ (F := F)) Variants.none c none) E (cc1__layer2_body i arg1 harg1 arg2 harg2 arg3 harg3 arg4 harg4) K := by
  simp only [cc1__layer2_body_eq_skeleton]; unfold cc1__layer2_body_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  rw [read_write_whole _ _ off2_zero, readAt_whole _ harg1 off2_zero, readAt_whole _ harg2 off3_zero, readAt_whole _ harg3 off2_zero]

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The arrays as the region finds them; after the body each input's buffer at its block and the output's at the payload
    of the input blocks; the invariant the scoped buffers at anything and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 1 t) (iblk1 V c 2 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 1 t) (iblk1 V c 2 t) (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body2 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Layer2

end
-- ==== Proof.OnBits.Run.lean ====
/-
  The whole program's run: two reshapes of the biases on the host, the first layer's region, the second layer's region.
  The buffers' contents at each boundary are a fold from the launch memory: after the host operations; after the first
  region (its arrays at what its write-backs leave, every other buffer as entered); after the second region likewise.
  Every weakly fair execution terminates with every unscoped buffer at the last boundary's contents: the six argument
  arrays walk back through the fold to the launch memory, and the result array is what the second region's write-backs
  leave.
-/
import proofs.«121101_g50766513438939_cont_8to1c4_522_2_alg».proof.Proof.OnBits.Layer1
import proofs.«121101_g50766513438939_cont_8to1c4_522_2_alg».proof.Proof.OnBits.Layer2
import proofs.«121101_g50766513438939_cont_8to1c4_522_2_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Kernel.Layer1 Cert.Kernel.Layer2
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers after the host's two reshapes (the first region's entry). -/
abbrev U1 : Dev nD → Valuation τ sig (Elt F) := fun c => Gen.V1 m c
/-- The same read at the TensorCore's references. -/
abbrev E1 : (c : Dev nD) → (b : Ref sig .tc) → Buf (Elt F) ((c : Thread nD τ).loc b) := fun c b => U1 m c b
/-- After the first region: its arrays at what the pipeline leaves, every other buffer as entered. -/
def U2 (c : Dev nD) : Valuation τ sig (Elt F) :=
  Pipeline.withArrays spec0 c (U1 m c) fun w => (dat0 (E1 m) c).arrAt w cfg0.N
theorem U2_arr (c : Dev nD) (w : Fin cfg0.W) :
    U2 m c (Proc.devRef .tc (Pipeline.arrRef spec0 w)) = (dat0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev E2 : (c : Dev nD) → (b : Ref sig .tc) → Buf (Elt F) ((c : Thread nD τ).loc b) := fun c b => U2 m c b
theorem hF0 (c : Dev nD) (w : Fin cfg0.W) : (dat0 (E1 m) c).arrAt w cfg0.N = E2 m c (Pipeline.arrRef spec0 w) :=
  (U2_arr m c w).symm
theorem hrest0 (c : Dev nD) : ∀ b, b ∉ Finset.univ.image (Pipeline.arrRef spec0) → E2 m c b = E1 m c b :=
  fun b hb => U2_of_ne m c b fun w e => hb (Finset.mem_image.mpr ⟨w, Finset.mem_univ _, e⟩)

/-- After the second region. -/
def U3 (c : Dev nD) : Valuation τ sig (Elt F) :=
  Pipeline.withArrays spec1 c (U2 m c) fun w => (dat1 (E2 m) c).arrAt w cfg1.N
theorem U3_arr (c : Dev nD) (w : Fin cfg1.W) :
    U3 m c (Proc.devRef .tc (Pipeline.arrRef spec1 w)) = (dat1 (E2 m) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
abbrev E3 : (c : Dev nD) → (b : Ref sig .tc) → Buf (Elt F) ((c : Thread nD τ).loc b) := fun c b => U3 m c b
theorem hF1 (c : Dev nD) (w : Fin cfg1.W) : (dat1 (E2 m) c).arrAt w cfg1.N = E3 m c (Pipeline.arrRef spec1 w) :=
  (U3_arr m c w).symm
theorem hrest1 (c : Dev nD) : ∀ b, b ∉ Finset.univ.image (Pipeline.arrRef spec1) → E3 m c b = E2 m c b :=
  fun b hb => U3_of_ne m c b fun w e => hb (Finset.mem_image.mpr ⟨w, Finset.mem_univ _, e⟩)

/-! ### The arguments end as launched: no host operation and no region writes one -/

theorem U3_main_arg0 (c : Dev nD) : U3 m c (Proc.devRef .tc main_arg0) = m ((c : Thread nD τ).loc main_arg0) :=
  calc U3 m c (Proc.devRef .tc main_arg0)
    _ = U2 m c (Proc.devRef .tc main_arg0) := U3_of_ne m c main_arg0 (by decide)
    _ = U1 m c (Proc.devRef .tc main_arg0) := (U2_arr m c 0).trans (((dat0 (E1 m) c).arrAt_in 0 rfl _).trans (A_eq0 (E1 m) c 0))
    _ = m ((c : Thread nD τ).loc main_arg0) := Gen.V1_of m c main_arg0 (by decide)
theorem U3_main_arg1 (c : Dev nD) : U3 m c (Proc.devRef .tc main_arg1) = m ((c : Thread nD τ).loc main_arg1) :=
  calc U3 m c (Proc.devRef .tc main_arg1)
    _ = U2 m c (Proc.devRef .tc main_arg1) := (U3_arr m c 1).trans (((dat1 (E2 m) c).arrAt_in 1 rfl _).trans (A_eq1 (E2 m) c 1))
    _ = U1 m c (Proc.devRef .tc main_arg1) := (U2_arr m c 4).trans (((dat0 (E1 m) c).arrAt_in 4 rfl _).trans (A_eq0 (E1 m) c 4))
    _ = m ((c : Thread nD τ).loc main_arg1) := Gen.V1_of m c main_arg1 (by decide)
theorem U3_main_arg2 (c : Dev nD) : U3 m c (Proc.devRef .tc main_arg2) = m ((c : Thread nD τ).loc main_arg2) :=
  calc U3 m c (Proc.devRef .tc main_arg2)
    _ = U2 m c (Proc.devRef .tc main_arg2) := U3_of_ne m c main_arg2 (by decide)
    _ = U1 m c (Proc.devRef .tc main_arg2) := (U2_arr m c 1).trans (((dat0 (E1 m) c).arrAt_in 1 rfl _).trans (A_eq0 (E1 m) c 1))
    _ = m ((c : Thread nD τ).loc main_arg2) := Gen.V1_of m c main_arg2 (by decide)
theorem U3_main_arg3 (c : Dev nD) : U3 m c (Proc.devRef .tc main_arg3) = m ((c : Thread nD τ).loc main_arg3) :=
  calc U3 m c (Proc.devRef .tc main_arg3)
    _ = U2 m c (Proc.devRef .tc main_arg3) := U3_of_ne m c main_arg3 (by decide)
    _ = U1 m c (Proc.devRef .tc main_arg3) := U2_of_ne m c main_arg3 (by decide)
    _ = m ((c : Thread nD τ).loc main_arg3) := Gen.V1_of m c main_arg3 (by decide)
theorem U3_main_arg4 (c : Dev nD) : U3 m c (Proc.devRef .tc main_arg4) = m ((c : Thread nD τ).loc main_arg4) :=
  calc U3 m c (Proc.devRef .tc main_arg4)
    _ = U2 m c (Proc.devRef .tc main_arg4) := U3_of_ne m c main_arg4 (by decide)
    _ = U1 m c (Proc.devRef .tc main_arg4) := (U2_arr m c 3).trans (((dat0 (E1 m) c).arrAt_in 3 rfl _).trans (A_eq0 (E1 m) c 3))
    _ = m ((c : Thread nD τ).loc main_arg4) := Gen.V1_of m c main_arg4 (by decide)
theorem U3_main_arg5 (c : Dev nD) : U3 m c (Proc.devRef .tc main_arg5) = m ((c : Thread nD τ).loc main_arg5) :=
  calc U3 m c (Proc.devRef .tc main_arg5)
    _ = U2 m c (Proc.devRef .tc main_arg5) := U3_of_ne m c main_arg5 (by decide)
    _ = U1 m c (Proc.devRef .tc main_arg5) := U2_of_ne m c main_arg5 (by decide)
    _ = m ((c : Thread nD τ).loc main_arg5) := Gen.V1_of m c main_arg5 (by decide)

/-- The result array ends at what the second region's write-backs leave. -/
theorem U3_main_v3 (c : Dev nD) : U3 m c (Proc.devRef .tc main_v3) = (dat1 (E2 m) c).arrAt 3 cfg1.N := U3_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (U3 m c) ∗ ∃ r, prngReg c r)

/-! ## The regions as segments -/

set_option backward.isDefEq.respectTransparency.types false in
/-- The first layer's region: entered from every unscoped buffer at `U1`, left at `U2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at `U2`, left at `U3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (Gen.V0 m)),
    .region (reg0 m),
    .region (reg1 m) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters, every weakly fair execution of @main terminates, nothing faulting, and
    every final state holds the result array at what the second region's write-backs leave and the six argument arrays as
    launched. -/
theorem run : θ_run defs (onTc (τ := τ) (main (F := F))) ⟨m, fun _ => 0, ρ⟩ (fun r => ∀ c : Dev nD,
      r.2.mem ((c.tc : Thread nD τ).loc main_v3) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m c b)
    (hfin := fun c s' => by
      iintro ⟨⟨Hh, -⟩, HSI⟩
      unfold StableHlo.held
      imodintro
      iapply (pointsTo_read_all (Pipeline.ucRefs τ sig) (fun b => (((c : Thread nD τ)).1, b)) (U3 m c) s')
      isplitl [Hh] <;> iassumption)
    (hQ := fun s h c =>
      ⟨(h c _ (mem_uc main_v3 (by decide))).trans (U3_main_v3 m c),
       (h c _ (mem_uc main_arg0 (by decide))).trans (U3_main_arg0 m c),
       (h c _ (mem_uc main_arg1 (by decide))).trans (U3_main_arg1 m c),
       (h c _ (mem_uc main_arg2 (by decide))).trans (U3_main_arg2 m c),
       (h c _ (mem_uc main_arg3 (by decide))).trans (U3_main_arg3 m c),
       (h c _ (mem_uc main_arg4 (by decide))).trans (U3_main_arg4 m c),
       (h c _ (mem_uc main_arg5 (by decide))).trans (U3_main_arg5 m c)⟩)

end Cert.Kernel.Run

end
-- ==== Proof.OnIdeal.Layer1Body.lean ====
/-
  The first graph-convolution layer as one pipelined kernel region, on whole memrefs: what its body does at one grid
  point. The grid walks 25 blocks of 400 rows of the first adjacency matrix. A scratch buffer carries `x · W1` from the
  first point to all later ones; the output block at a point is `leaky (A-block · scratch + b1) · W2`.
-/
import proofs.«121101_g50766513438939_cont_8to1c4_522_2_alg».proof.Proof.Gen.KernelIdeal.Launch
import proofs.«121101_g50766513438939_cont_8to1c4_522_2_alg».proof.Proof.Gen.KernelIdeal.Skeleton
import proofs.«121101_g50766513438939_cont_8to1c4_522_2_alg».proof.Proof.Gen.KernelIdeal.Points
import proofs.«121101_g50766513438939_cont_8to1c4_522_2_alg».proof.Proof.LibWholeRect
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Layer1Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Lib

variable {F : FTy → Type} [FloatOps F]

local notation "𝕄" => MT nD τ sig Unit (Elt F) ℕ (UR sig nD τ) ℕ

/-! ## The branch on the grid position -/

/-- The body's one conditional: it is taken at the first grid point only. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- No window of the first layer's pipeline is ever idle. -/
theorem live0 : ∀ (w : Fin cfg0.W) (t : Fin cfg0.N), cfg0.idle w (grid0.coords t) = false := by decide +kernel

/-! ## The body on whole memrefs

At the first grid point the body fills the scratch with `x · W1` and then uses it; at every later point it finds the
scratch as the first point left it. Either way the output block is the second payload of the blocks and the scratch. -/

set_option maxHeartbeats 1000000 in
/-- The first point: the scratch may hold anything; it ends at the first payload of `x` and `W1`. -/
theorem body_first (c : Dev nD) (E : Set ℕ) (i : grid0.Coords) (hc : isFirst i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x16 .f32) (harg4 : arg4.IsWhole)
    (arg5 : Memref sig .tc .vmem S1x400x10000 .f32) (harg5 : arg5.IsWhole) (arg6 : Memref sig .tc .vmem S400x16 .f32) (harg6 : arg6.IsWhole)
    (arg7 : Memref sig .tc .vmem S10000x16 .f32) (harg7 : arg7.IsWhole)
    (x1 : Vec F S10000x128 .f32) (x2 : Vec F S128x16 .f32) (x3 : Vec F S1x16 .f32) (x4 : Vec F S16x16 .f32) (x5 : Vec F S1x400x10000 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k0_pay2 x5 (k0_pay1 x1 x2) x3 x4)
            ∗ owns (c : Thread nD τ) arg7 fullShare (k0_pay1 x1 x2)) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hc)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_write_whole _ _ off2_zero, View.readCov_unit_zero _ off2_zero, readAt_whole _ harg1 off2_zero, readAt_whole _ harg2 off2_zero,
      readAt_whole _ harg3 off2_zero, readAt_whole _ harg4 off2_zero, readAt_whole _ harg5 off3_zero]
  · iexists _; isplitr
    swap; · iexact H7
    ipureintro
    rw [read_write_whole _ _ off2_zero, readAt_whole _ harg1 off2_zero, readAt_whole _ harg2 off2_zero]

set_option maxHeartbeats 1000000 in
/-- A later point: the scratch holds `s` and keeps it. -/
theorem body_later (c : Dev nD) (E : Set ℕ) (i : grid0.Coords) (hc : ¬isFirst i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x16 .f32) (harg4 : arg4.IsWhole)
    (arg5 : Memref sig .tc .vmem S1x400x10000 .f32) (harg5 : arg5.IsWhole) (arg6 : Memref sig .tc .vmem S400x16 .f32) (harg6 : arg6.IsWhole)
    (arg7 : Memref sig .tc .vmem S10000x16 .f32) (harg7 : arg7.IsWhole)
    (x1 : Vec F S10000x128 .f32) (x2 : Vec F S128x16 .f32) (x3 : Vec F S1x16 .f32) (x4 : Vec F S16x16 .f32) (x5 : Vec F S1x400x10000 .f32)
    (s : Vec F S10000x16 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare s
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k0_pay2 x5 s x3 x4)
            ∗ owns (c : Thread nD τ) arg7 fullShare s) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7
  sl_exec (disch := exact hc)
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_write_whole _ _ off2_zero, readAt_whole _ harg3 off2_zero, readAt_whole _ harg4 off2_zero, readAt_whole _ harg5 off3_zero,
      readAt_whole _ harg7 off2_zero]
  · iexists _; isplitr; · ipureintro; exact harg7.read_unread _
    iexact H7

end Cert.KernelIdeal.Layer1Body

end
-- ==== Proof.OnIdeal.Layer1.lean ====
/-
  The first layer's pipeline as proof data, at any contents `V` of the buffers when the region is entered: each input
  window's block, the scratch after the first point (`x · W1` of the two whole-array windows), what the body leaves in
  every staging buffer at every point, the region's invariant (before the first point the scoped buffers at anything;
  afterwards the scratch at `x · W1`), and the body obligation at every point.
-/
import proofs.«121101_g50766513438939_cont_8to1c4_522_2_alg».proof.Proof.OnIdeal.Layer1Body

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Layer1Body

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The scratch and the invariant -/

/-- The grid's first point. -/
abbrev t0 : Fin cfg0.N := ⟨0, by decide⟩

/-- What the first point leaves in the scratch, and every later point finds there: `x · W1` of the two whole windows. -/
def sup (c : Dev nD) : Vec F S10000x16 .f32 := k0_pay1 (iblk0 V c 0 t0) (iblk0 V c 1 t0)

/-- The scratch operand as a memref. -/
abbrev scM0 : Memref sig .tc .vmem S10000x16 .f32 := Memref.whole cc0_scratch0

/-- The scoped buffers this region never touches (the second layer's staging buffers), each at anything. -/
abbrev rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's entry invariant spelt out: the scratch at anything, the untouched scoped buffers, the generator register. -/
theorem PhiA0_eq (c : Dev nD) :
    (Pipeline.ΦA spec0 c : sProp 𝕄)
      = iprop(((∃ d, owns (c : Thread nD τ) scM0 fullShare d) ∗ rest6 c) ∗ (∃ r, prngReg c r)) := by
  unfold Pipeline.ΦA; rw [scopedRest0_eq]; simp only [scM0, owns_whole]; rfl

/-- The invariant before position `n`: before the first point the entry invariant; afterwards the same with the scratch
    at `x · W1`. -/
def PhiS (c : Dev nD) : ℕ → sProp 𝕄
  | 0 => Pipeline.ΦA spec0 c
  | _ + 1 => iprop((owns (c : Thread nD τ) scM0 fullShare (sup V c) ∗ rest6 c) ∗ (∃ r, prngReg c r))

theorem PhiS_pos (c : Dev nD) (n : ℕ) (hn : n ≠ 0) :
    PhiS V c n = iprop((owns (c : Thread nD τ) scM0 fullShare (sup V c) ∗ rest6 c) ∗ (∃ r, prngReg c r)) := by
  cases n with
  | zero => exact absurd rfl hn
  | succ n => rfl

/-! ## The proof data -/

/-- The arrays as the region finds them; after the body at point `t` each input's buffer at its block and the output's at
    the second payload of the blocks and the scratch; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 4 t) (sup V c) (iblk0 V c 2 t) (iblk0 V c 3 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = k0_pay2 (iblk0 V c 4 t) (sup V c) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem Phi_castSucc (c : Dev nD) (t : Fin cfg0.N) : (dat0 V c).Φ t.castSucc = PhiS V c t.val := by
  dsimp only [dat0]; simp only [Fin.coe_castSucc]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

theorem leaves0 (c : Dev nD) (w : Fin cfg0.W) (t : Fin cfg0.N) :
    (dat0 V c).leavesExact w t = owns (c : Thread nD τ) ((cfg0.win w).stage (cfg0.slots t w)) fullShare ((dat0 V c).after w t) := by
  unfold Dat.leavesExact; rw [live0 w t]

set_option maxHeartbeats 4000000 in
/-- The body at any point: the inputs' memrefs hold their blocks; at the first point the scratch is filled, at a later one
    it is found as the first point left it; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS V c (t.val + 1) from rfl, PhiS_pos V c (t.val + 1) (Nat.succ_ne_zero _),
    leaves0 V c 0 t, leaves0 V c 1 t, leaves0 V c 2 t, leaves0 V c 3 t, leaves0 V c 4 t, leaves0 V c 5 t,
    after0_0, after0_1, after0_2, after0_3, after0_4, after0_5, Phi_castSucc]
  by_cases hz : t.val = 0
  · obtain rfl : t = t0 := Fin.ext hz
    rw [show PhiS V c (t0 : Fin cfg0.N).val = Pipeline.ΦA spec0 c from rfl, PhiA0_eq]
    iintro ⟨⟨⟨⟨%d7, HS⟩, Hrest⟩, Hg⟩, Ho, ⟨%d0, H0⟩, ⟨%d1, H1⟩, ⟨%d2, H2⟩, ⟨%d3, H3⟩, ⟨%d4, H4⟩, ⟨%d5, H5⟩⟩
    iapply (body_first c Set.univ (grid0.coords t0) ((isFirst_iff t0).mpr rfl) _ _ _ _ _ _ _ _ _ _ _ _ _ _
      (iblk0 V c 0 t0) (iblk0 V c 1 t0) (iblk0 V c 2 t0) (iblk0 V c 3 t0) (iblk0 V c 4 t0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS Hrest Hg]
    · isplitl [HS Hrest]
      · isplitl [HS]
        · unfold sup; iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold sup; iexact H5
  · rw [PhiS_pos V c t.val hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (body_later c Set.univ (grid0.coords t) (fun h => hz ((isFirst_iff t).mp h)) _ _ _ _ _ _ _ _ _ _ _ _ _ _
      (iblk0 V c 0 t) (iblk0 V c 1 t) (iblk0 V c 2 t) (iblk0 V c 3 t) (iblk0 V c 4 t) (sup V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]
        · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation at every point. -/
theorem body_obligation0 (c : Dev nD) : BodyObligation (dat0 (F := F) V c) (defs₀ (F := F)) Variants.none () Set.univ := fun t => by
  rw [bigSep_W0, bigSep_W0]
  exact sound_body0 V c t

/-- After the last point the invariant gives the entry invariant back: the scratch's contents are forgotten. -/
theorem Phi_last (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS, Hrest⟩, Hg⟩
  isplitl [HS Hrest]
  · isplitl [HS]
    · iexists _; iexact HS
    iexact Hrest
  iexact Hg

end Cert.KernelIdeal.Layer1

end
-- ==== Proof.OnIdeal.Layer2.lean ====
/-
  The second graph-convolution layer as one pipelined kernel region: the grid walks 25 blocks of 400 rows of the second
  adjacency matrix; the output block at a point is the row-wise log-softmax of `A-block · support2 + b2`. Nothing is
  carried between points. Stated at any contents `V` of the buffers when the region is entered: each input window's
  block, what the body leaves in every staging buffer, and the body obligation at every point.
-/
import proofs.«121101_g50766513438939_cont_8to1c4_522_2_alg».proof.Proof.OnIdeal.Layer1Body

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Layer1Body Cert.Lib

variable {F : FTy → Type} [FloatOps F]

local notation "𝕄" => MT nD τ sig Unit (Elt F) ℕ (UR sig nD τ) ℕ

/-! ## The body on whole memrefs -/

set_option maxHeartbeats 1000000 in
/-- The body holds its inputs as they were and leaves the output block at the payload of the three inputs. -/
theorem body2 (c : Dev nD) (E : Set ℕ) (i : grid1.Coords)
    (arg1 : Memref sig .tc .vmem S1x16 .f32) (harg1 : arg1.IsWhole) (arg2 : Memref sig .tc .vmem S1x400x10000 .f32) (harg2 : arg2.IsWhole)
    (arg3 : Memref sig .tc .vmem S10000x16 .f32) (harg3 : arg3.IsWhole) (arg4 : Memref sig .tc .vmem S400x16 .f32) (harg4 : arg4.IsWhole)
    (x1 : Vec F S1x16 .f32) (x2 : Vec F S1x400x10000 .f32) (x3 : Vec F S10000x16 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (k1_pay1 x2 x3 x1)) -∗ K ⟨⟩))
      ⊢ wp frame (wpE (defs₀ (F := F)) Variants.none c none) E (cc1__layer2_body i arg1 harg1 arg2 harg2 arg3 harg3 arg4 harg4) K := by
  simp only [cc1__layer2_body_eq_skeleton]; unfold cc1__layer2_body_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec
  sl_step
  sl_unfold_run_names
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  rw [read_write_whole _ _ off2_zero, readAt_whole _ harg1 off2_zero, readAt_whole _ harg2 off3_zero, readAt_whole _ harg3 off2_zero]

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The arrays as the region finds them; after the body each input's buffer at its block and the output's at the payload
    of the input blocks; the invariant the scoped buffers at anything and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 1 t) (iblk1 V c 2 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 1 t) (iblk1 V c 2 t) (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (body2 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Layer2

end
-- ==== Proof.OnIdeal.Run.lean ====
/-
  The whole program's run: two reshapes of the biases on the host, the first layer's region, the second layer's region.
  The buffers' contents at each boundary are a fold from the launch memory: after the host operations; after the first
  region (its arrays at what its write-backs leave, every other buffer as entered); after the second region likewise.
  Every weakly fair execution terminates with every unscoped buffer at the last boundary's contents: the six argument
  arrays walk back through the fold to the launch memory, and the result array is what the second region's write-backs
  leave.
-/
import proofs.«121101_g50766513438939_cont_8to1c4_522_2_alg».proof.Proof.OnIdeal.Layer1
import proofs.«121101_g50766513438939_cont_8to1c4_522_2_alg».proof.Proof.OnIdeal.Layer2
import proofs.«121101_g50766513438939_cont_8to1c4_522_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Layer1 Cert.KernelIdeal.Layer2
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers after the host's two reshapes (the first region's entry). -/
abbrev U1 : Dev nD → Valuation τ sig (Elt F) := fun c => Gen.V1 m c
/-- The same read at the TensorCore's references. -/
abbrev E1 : (c : Dev nD) → (b : Ref sig .tc) → Buf (Elt F) ((c : Thread nD τ).loc b) := fun c b => U1 m c b
/-- After the first region: its arrays at what the pipeline leaves, every other buffer as entered. -/
def U2 (c : Dev nD) : Valuation τ sig (Elt F) :=
  Pipeline.withArrays spec0 c (U1 m c) fun w => (dat0 (E1 m) c).arrAt w cfg0.N
theorem U2_arr (c : Dev nD) (w : Fin cfg0.W) :
    U2 m c (Proc.devRef .tc (Pipeline.arrRef spec0 w)) = (dat0 (E1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev E2 : (c : Dev nD) → (b : Ref sig .tc) → Buf (Elt F) ((c : Thread nD τ).loc b) := fun c b => U2 m c b
theorem hF0 (c : Dev nD) (w : Fin cfg0.W) : (dat0 (E1 m) c).arrAt w cfg0.N = E2 m c (Pipeline.arrRef spec0 w) :=
  (U2_arr m c w).symm
theorem hrest0 (c : Dev nD) : ∀ b, b ∉ Finset.univ.image (Pipeline.arrRef spec0) → E2 m c b = E1 m c b :=
  fun b hb => U2_of_ne m c b fun w e => hb (Finset.mem_image.mpr ⟨w, Finset.mem_univ _, e⟩)

/-- After the second region. -/
def U3 (c : Dev nD) : Valuation τ sig (Elt F) :=
  Pipeline.withArrays spec1 c (U2 m c) fun w => (dat1 (E2 m) c).arrAt w cfg1.N
theorem U3_arr (c : Dev nD) (w : Fin cfg1.W) :
    U3 m c (Proc.devRef .tc (Pipeline.arrRef spec1 w)) = (dat1 (E2 m) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
abbrev E3 : (c : Dev nD) → (b : Ref sig .tc) → Buf (Elt F) ((c : Thread nD τ).loc b) := fun c b => U3 m c b
theorem hF1 (c : Dev nD) (w : Fin cfg1.W) : (dat1 (E2 m) c).arrAt w cfg1.N = E3 m c (Pipeline.arrRef spec1 w) :=
  (U3_arr m c w).symm
theorem hrest1 (c : Dev nD) : ∀ b, b ∉ Finset.univ.image (Pipeline.arrRef spec1) → E3 m c b = E2 m c b :=
  fun b hb => U3_of_ne m c b fun w e => hb (Finset.mem_image.mpr ⟨w, Finset.mem_univ _, e⟩)

/-! ### The arguments end as launched: no host operation and no region writes one -/

theorem U3_main_arg0 (c : Dev nD) : U3 m c (Proc.devRef .tc main_arg0) = m ((c : Thread nD τ).loc main_arg0) :=
  calc U3 m c (Proc.devRef .tc main_arg0)
    _ = U2 m c (Proc.devRef .tc main_arg0) := U3_of_ne m c main_arg0 (by decide)
    _ = U1 m c (Proc.devRef .tc main_arg0) := (U2_arr m c 0).trans (((dat0 (E1 m) c).arrAt_in 0 rfl _).trans (A_eq0 (E1 m) c 0))
    _ = m ((c : Thread nD τ).loc main_arg0) := Gen.V1_of m c main_arg0 (by decide)
theorem U3_main_arg1 (c : Dev nD) : U3 m c (Proc.devRef .tc main_arg1) = m ((c : Thread nD τ).loc main_arg1) :=
  calc U3 m c (Proc.devRef .tc main_arg1)
    _ = U2 m c (Proc.devRef .tc main_arg1) := (U3_arr m c 1).trans (((dat1 (E2 m) c).arrAt_in 1 rfl _).trans (A_eq1 (E2 m) c 1))
    _ = U1 m c (Proc.devRef .tc main_arg1) := (U2_arr m c 4).trans (((dat0 (E1 m) c).arrAt_in 4 rfl _).trans (A_eq0 (E1 m) c 4))
    _ = m ((c : Thread nD τ).loc main_arg1) := Gen.V1_of m c main_arg1 (by decide)
theorem U3_main_arg2 (c : Dev nD) : U3 m c (Proc.devRef .tc main_arg2) = m ((c : Thread nD τ).loc main_arg2) :=
  calc U3 m c (Proc.devRef .tc main_arg2)
    _ = U2 m c (Proc.devRef .tc main_arg2) := U3_of_ne m c main_arg2 (by decide)
    _ = U1 m c (Proc.devRef .tc main_arg2) := (U2_arr m c 1).trans (((dat0 (E1 m) c).arrAt_in 1 rfl _).trans (A_eq0 (E1 m) c 1))
    _ = m ((c : Thread nD τ).loc main_arg2) := Gen.V1_of m c main_arg2 (by decide)
theorem U3_main_arg3 (c : Dev nD) : U3 m c (Proc.devRef .tc main_arg3) = m ((c : Thread nD τ).loc main_arg3) :=
  calc U3 m c (Proc.devRef .tc main_arg3)
    _ = U2 m c (Proc.devRef .tc main_arg3) := U3_of_ne m c main_arg3 (by decide)
    _ = U1 m c (Proc.devRef .tc main_arg3) := U2_of_ne m c main_arg3 (by decide)
    _ = m ((c : Thread nD τ).loc main_arg3) := Gen.V1_of m c main_arg3 (by decide)
theorem U3_main_arg4 (c : Dev nD) : U3 m c (Proc.devRef .tc main_arg4) = m ((c : Thread nD τ).loc main_arg4) :=
  calc U3 m c (Proc.devRef .tc main_arg4)
    _ = U2 m c (Proc.devRef .tc main_arg4) := U3_of_ne m c main_arg4 (by decide)
    _ = U1 m c (Proc.devRef .tc main_arg4) := (U2_arr m c 3).trans (((dat0 (E1 m) c).arrAt_in 3 rfl _).trans (A_eq0 (E1 m) c 3))
    _ = m ((c : Thread nD τ).loc main_arg4) := Gen.V1_of m c main_arg4 (by decide)
theorem U3_main_arg5 (c : Dev nD) : U3 m c (Proc.devRef .tc main_arg5) = m ((c : Thread nD τ).loc main_arg5) :=
  calc U3 m c (Proc.devRef .tc main_arg5)
    _ = U2 m c (Proc.devRef .tc main_arg5) := U3_of_ne m c main_arg5 (by decide)
    _ = U1 m c (Proc.devRef .tc main_arg5) := U2_of_ne m c main_arg5 (by decide)
    _ = m ((c : Thread nD τ).loc main_arg5) := Gen.V1_of m c main_arg5 (by decide)

/-- The result array ends at what the second region's write-backs leave. -/
theorem U3_main_v3 (c : Dev nD) : U3 m c (Proc.devRef .tc main_v3) = (dat1 (E2 m) c).arrAt 3 cfg1.N := U3_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (U3 m c) ∗ ∃ r, prngReg c r)

/-! ## The regions as segments -/

set_option backward.isDefEq.respectTransparency.types false in
/-- The first layer's region: entered from every unscoped buffer at `U1`, left at `U2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at `U2`, left at `U3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (Gen.V0 m)),
    .region (reg0 m),
    .region (reg1 m) ]
theorem main_run (c : Dev nD) : main (F := F) c = Pipeline.Seg.run (segs m) := (main_chain c).trans (by chain_rfl)

variable (ρ : Dev nD → PrngReg)

set_option backward.isDefEq.respectTransparency.types false in
/-- THE RUN: from any memory with zero counters, every weakly fair execution of @main terminates, nothing faulting, and
    every final state holds the result array at what the second region's write-backs leave and the six argument arrays as
    launched. -/
theorem run : θ_run defs (onTc (τ := τ) (main (F := F))) ⟨m, fun _ => 0, ρ⟩ (fun r => ∀ c : Dev nD,
      r.2.mem ((c.tc : Thread nD τ).loc main_v3) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m c b)
    (hfin := fun c s' => by
      iintro ⟨⟨Hh, -⟩, HSI⟩
      unfold StableHlo.held
      imodintro
      iapply (pointsTo_read_all (Pipeline.ucRefs τ sig) (fun b => (((c : Thread nD τ)).1, b)) (U3 m c) s')
      isplitl [Hh] <;> iassumption)
    (hQ := fun s h c =>
      ⟨(h c _ (mem_uc main_v3 (by decide))).trans (U3_main_v3 m c),
       (h c _ (mem_uc main_arg0 (by decide))).trans (U3_main_arg0 m c),
       (h c _ (mem_uc main_arg1 (by decide))).trans (U3_main_arg1 m c),
       (h c _ (mem_uc main_arg2 (by decide))).trans (U3_main_arg2 m c),
       (h c _ (mem_uc main_arg3 (by decide))).trans (U3_main_arg3 m c),
       (h c _ (mem_uc main_arg4 (by decide))).trans (U3_main_arg4 m c),
       (h c _ (mem_uc main_arg5 (by decide))).trans (U3_main_arg5 m c)⟩)

end Cert.KernelIdeal.Run

end
-- ==== Proof.Frames.lean ====
/-
  The kernel's two frame claims and its idealization claim. Each frame is the program's run with the result dropped:
  every weakly fair execution ends, faults nowhere, and leaves the six argument arrays as launched. The ideal pass
  rewrote nothing, so the idealization claim is the trivial proposition.
-/
import proofs.«121101_g50766513438939_cont_8to1c4_522_2_alg».proof.Defs
import proofs.«121101_g50766513438939_cont_8to1c4_522_2_alg».proof.Proof.Gen.Kernel
import proofs.«121101_g50766513438939_cont_8to1c4_522_2_alg».proof.Proof.Gen.KernelIdeal
import proofs.«121101_g50766513438939_cont_8to1c4_522_2_alg».proof.Proof.Gen.Pre_finite_inputs
import proofs.«121101_g50766513438939_cont_8to1c4_522_2_alg».proof.Proof.OnBits.Run
import proofs.«121101_g50766513438939_cont_8to1c4_522_2_alg».proof.Proof.OnIdeal.Run

noncomputable section

namespace Cert.Proof.Frames

open Idealize.ShloMosaic Idealize.SL.Sem

theorem frame_k : Cert.frame_Kernel := fun m ρ _ =>
  (θ_run (Cert.Kernel.defs (F := Bits)) _ _).mono (fun _ h c => (h c).2) (Cert.Kernel.Run.run (F := Bits) m ρ)

theorem frame_ki : Cert.frame_KernelIdeal := fun m ρ _ =>
  (θ_run (Cert.KernelIdeal.defs (F := Ideal)) _ _).mono (fun _ h c => (h c).2) (Cert.KernelIdeal.Run.run (F := Ideal) m ρ)

theorem preserves : Cert.preserves_Kernel_KernelIdeal := trivial

end Cert.Proof.Frames

end
-- ==== Proof.Spec.lean ====
/-
  A two-layer graph convolution on the extended reals, entry by entry.

  With node features `x` (10000 × 128), two dense adjacency matrices stacked as `A` (2 × 10000 × 10000), weights `W1`
  (128 × 16), `W2` (16 × 16) and biases `b1`, `b2` (16 each):

    support  = x · W1                                   (10000 × 16)
    hidden   = leaky (A₀ · support + b1)                (10000 × 16), leaky h = h if h ≥ 0 else c · h, c the f32 nearest 0.01
    support2 = hidden · W2                              (10000 × 16)
    logits   = A₁ · support2 + b2                       (10000 × 16)
    out      = log_softmax of each row of logits        (10000 × 16)

  Every product is the plain row-by-column sum; the row softmax subtracts the row's maximum (a fold of `max` from -∞),
  exponentiates, sums, takes the logarithm and subtracts it. Nothing here names a program: the functions are stated
  over coordinates, and `outArr` is the result as an array over the index type of the shape [10000, 16].
-/
import Idealize.ShloMosaic.PureOps.Ideal
import Idealize.ShloMosaic.Lib.ValueIdx

noncomputable section

namespace Cert.Gcn

open Idealize.ShloMosaic Idealize.ShloMosaic.ValueIdx
open scoped BigOperators

/-- A matrix of extended reals over the index type of the shape `[a, b]`. -/
abbrev Mat (a b : ℕ) : Type := (⟨2, ![a, b]⟩ : Shape).Idx → EReal
/-- A vector of extended reals over the index type of the shape `[a]`. -/
abbrev Vct (a : ℕ) : Type := (⟨1, ![a]⟩ : Shape).Idx → EReal
/-- A stack of matrices over the index type of the shape `[s, a, b]`. -/
abbrev Stk (s a b : ℕ) : Type := (⟨3, ![s, a, b]⟩ : Shape).Idx → EReal

/-- The leaky rectifier with slope the f32 nearest to 0.01 on the negative side. -/
def leaky (h : EReal) : EReal :=
  Scalar.select (Ideal.cmp .oge h (Ideal.ofBits .f32 0x00000000#32)) h (Ideal.ofBits .f32 0x3C23D70A#32 * h)

/-- `x · W1` at `(n, j)`. -/
def support (x : Mat 10000 128) (W1 : Mat 128 16) (n : Fin 10000) (j : Fin 16) : EReal :=
  ∑ k : Fin 128, x (ix2 n k) * W1 (ix2 k j)

/-- `leaky (A₀ · s + b1)` at `(r, k)`, for any first-layer support `s`. -/
def hiddenOf (A : Stk 2 10000 10000) (s : Fin 10000 → Fin 16 → EReal) (b1 : Vct 16) (r : Fin 10000) (k : Fin 16) : EReal :=
  leaky ((∑ n : Fin 10000, A (ix3 0 r n) * s n k) + b1 (ix1 k))

/-- `hidden · W2` at `(r, j)`, for any first-layer support `s`. -/
def support2Of (A : Stk 2 10000 10000) (s : Fin 10000 → Fin 16 → EReal) (b1 : Vct 16) (W2 : Mat 16 16)
    (r : Fin 10000) (j : Fin 16) : EReal :=
  ∑ k : Fin 16, hiddenOf A s b1 r k * W2 (ix2 k j)

/-- `A₁ · s2 + b2` at `(r, j)`, for any second-layer support `s2`. -/
def logitsOf (A : Stk 2 10000 10000) (s2 : Fin 10000 → Fin 16 → EReal) (b2 : Vct 16) (r : Fin 10000) (j : Fin 16) : EReal :=
  (∑ n : Fin 10000, A (ix3 1 r n) * s2 n j) + b2 (ix1 j)

/-- The maximum of a row of 16 entries, folded from -∞. -/
def rowMax (h : Fin 16 → EReal) : EReal :=
  (Finset.univ : Finset (Fin 16)).fold max (Ideal.ofBits .f32 0xFF800000#32) h

/-- The log-softmax of a row of 16 entries at position `j`. -/
def logSoftmaxRow (h : Fin 16 → EReal) (j : Fin 16) : EReal :=
  (h j - rowMax h) - Ideal.log (∑ j' : Fin 16, Ideal.exp (h j' - rowMax h))

/-- The second-layer support of the whole network at `(r, j)`. -/
def support2 (x : Mat 10000 128) (A : Stk 2 10000 10000) (W1 : Mat 128 16) (b1 : Vct 16) (W2 : Mat 16 16)
    (r : Fin 10000) (j : Fin 16) : EReal :=
  support2Of A (support x W1) b1 W2 r j

/-- The network's result at `(r, j)`. -/
def out (x : Mat 10000 128) (A : Stk 2 10000 10000) (W1 : Mat 128 16) (b1 : Vct 16) (W2 : Mat 16 16) (b2 : Vct 16)
    (r : Fin 10000) (j : Fin 16) : EReal :=
  logSoftmaxRow (logitsOf A (support2 x A W1 b1 W2) b2 r) j

/-- A function of coordinates as an array over the index type of `[a, b]`. -/
def asMat {a b : ℕ} (f : Fin a → Fin b → EReal) : Mat a b :=
  fun i => f ⟨(i 0).val, idx2_lt0 i⟩ ⟨(i 1).val, idx2_lt1 i⟩

theorem asMat_apply {a b : ℕ} (f : Fin a → Fin b → EReal) (p : Fin a) (q : Fin b) : asMat f (ix2 p q) = f p q := rfl

/-- The network's result as an array over the index type of the shape `[10000, 16]`. -/
def outArr (x : Mat 10000 128) (A : Stk 2 10000 10000) (W1 : Mat 128 16) (b1 : Vct 16) (W2 : Mat 16 16) (b2 : Vct 16) :
    Mat 10000 16 :=
  asMat (out x A W1 b1 W2 b2)

end Cert.Gcn

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«121101_g50766513438939_cont_8to1c4_522_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibSpread.lean ====
/-
  A vector spread over a matrix, read at an index.

  The layout chains by which a kernel body turns a vector into a matrix operand, each read at `(p, q)` as one entry of the
  vector. A vector of `a` entries laid as a column and repeated along `b` columns reads its entry `p`; a vector of `b`
  entries laid as a row and repeated down `a` rows reads its entry `q`; with row `l` of a stacked array as the vector, these
  are the two factors of an outer product of row `l` of one array with row `l` of another. Also a vector with two leading
  unit axes, `[1, 1, a]`, against the plain vector `[a]`, in both directions. Each is stated over any element type and
  over literal coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-- A vector laid as a column and repeated along `b` columns reads, at `(p, q)`, its entry `p`. -/
theorem column_spread_apply {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ => rfl
  · exact shapeCast_apply v hc _ _ (by
      rw [Shape.rowMajor_val_two, Shape.rowMajor_val_one]
      show p.val = p.val * 1 + 0
      rw [Nat.mul_one, Nat.add_zero])

/-- A vector laid as a row and repeated down `a` rows reads, at `(p, q)`, its entry `q`. -/
theorem row_spread_apply {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc (0 : Fin 1) q)

/-- Row `l` of a matrix as a vector: entry `n` is the matrix's `(l, n)`. -/
theorem rowOf_apply {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- Row `l` of a stacked array spread as a column over `b` columns: at `(p, q)` the array's `(l, p)`. -/
theorem rowAsColumn_apply {n0 a b l : ℕ} (hl : l < n0) (X : (⟨2, ![n0, a]⟩ : Shape).Idx → α)
    (hs : (⟨2, ![n0, a]⟩ : Shape).Slices ![l, 0] ⟨2, ![1, a]⟩) (hc1 : (⟨2, ![1, a]⟩ : Shape).ShapeCasts ⟨1, ![a]⟩)
    (hc2 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (shapeCast ⟨1, ![a]⟩ (extractStridedSlice ⟨2, ![1, a]⟩ ![l, 0] X hs) hc1) hc2) hb
        (ix2 p q) = X (ix2 (⟨l, hl⟩ : Fin n0) p) :=
  (column_spread_apply _ hc2 hb p q).trans (rowOf_apply hl X hs hc1 p)

/-- Row `l` of a stacked array spread as a row down `a` rows: at `(p, q)` the array's `(l, q)`. -/
theorem rowAsRow_apply {n0 a b l : ℕ} (hl : l < n0) (X : (⟨2, ![n0, b]⟩ : Shape).Idx → α)
    (hs : (⟨2, ![n0, b]⟩ : Shape).Slices ![l, 0] ⟨2, ![1, b]⟩) (hc1 : (⟨2, ![1, b]⟩ : Shape).ShapeCasts ⟨1, ![b]⟩)
    (hc2 : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (shapeCast ⟨1, ![b]⟩ (extractStridedSlice ⟨2, ![1, b]⟩ ![l, 0] X hs) hc1) hc2) hb
        (ix2 p q) = X (ix2 (⟨l, hl⟩ : Fin n0) q) :=
  (row_spread_apply _ hc2 hb p q).trans (rowOf_apply hl X hs hc1 q)

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` array cast to `[1, 1, a]` reads, at `(u, u', i)`, the operand at `i`. -/
theorem shapeCast_a_11a_apply {a : ℕ} (x : (⟨1, ![a]⟩ : Shape).Idx → α) (h : (⟨1, ![a]⟩ : Shape).ShapeCasts ⟨3, ![1, 1, a]⟩)
    (u u' : Fin 1) (i : Fin a) : shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    simp [hu, hu'])

end Cert.Lib

end
-- ==== Proof.KernelRows.lean ====
/-
  The two kernel bodies' arithmetic, read entry by entry on the extended reals.

  The first body computes the first-layer support `x · W1` once (a 10000 × 128 by 128 × 16 product into a zero
  accumulator), and then, for a block of 400 rows of the first adjacency matrix, the affine part `A_blk · support + b1`,
  the leaky rectifier of each entry, and the product with `W2`. The second body computes, for a block of 400 rows of the
  second adjacency matrix, the affine part `A_blk · support2 + b2` and the log-softmax of each of its rows: the row's
  maximum (a fold of `max` from -∞) is subtracted, the exponentials are summed along the row, and the logarithm of that sum
  is subtracted.

  Each stored value is read here at an index `(p, j)` as a formula in the entries of the arrays it was computed from: a
  matrix product is the row-by-column sum, a bias row repeated down the block reads its entry `j`, a row statistic laid as a
  column and repeated along the row reads the statistic of row `p`, and every other step acts entry by entry. The sums over
  the 10000 nodes are never opened.
-/
import proofs.«121101_g50766513438939_cont_8to1c4_522_2_alg».proof.Proof.Gen.KernelIdeal.Skeleton
import proofs.«121101_g50766513438939_cont_8to1c4_522_2_alg».proof.Proof.Spec
import proofs.«121101_g50766513438939_cont_8to1c4_522_2_alg».proof.Proof.LibMatDot
import proofs.«121101_g50766513438939_cont_8to1c4_522_2_alg».proof.Proof.LibRowMax
import proofs.«121101_g50766513438939_cont_8to1c4_522_2_alg».proof.Proof.LibRowSum
import proofs.«121101_g50766513438939_cont_8to1c4_522_2_alg».proof.Proof.LibColumn
import proofs.«121101_g50766513438939_cont_8to1c4_522_2_alg».proof.Proof.LibSpread
import Idealize.ShloMosaic.Lib.ValueIdx
import Idealize.ShloMosaic.Lib.ValueLayout
import Idealize.ShloMosaic.Lib.Pipeline.Value

noncomputable section

namespace Cert.KernelRows

open Idealize.ShloMosaic Idealize.ShloMosaic.ValueIdx Cert.KernelIdeal
open scoped BigOperators

/-! ## The three pieces of arithmetic the two layers are made of -/

/-- A block of 400 rows of the adjacency matrix (carried with a leading unit axis) times a 10000 × 16 operand, plus a
    bias row repeated down the 400 rows: the affine part `A_blk · s + b` of either layer, as an array over `[400, 16]`. -/
def affine (a : FVec Ideal S1x400x10000 .f32) (s : FVec Ideal S10000x16 .f32) (b : FVec Ideal S1x16 .f32) :
    FVec Ideal S400x16 .f32 :=
  addf
    (matmul dot_S400x10000_S10000x16_S400x16_1_0_0_1_n_n none
      (shapeCast S400x10000 a Gen.shapeCasts_S1x400x10000_S400x10000) s (constant S400x16 .f32 0x00000000#32))
    (broadcastTo S400x16 (shapeCast S1x16 b Gen.shapeCasts_S1x16_S1x16) Gen.broadcasts_S1x16_S400x16)

/-- The leaky rectifier applied entry by entry: where an entry is at least zero it is kept, elsewhere it is multiplied by
    the slope (the f32 nearest 0.01). -/
def leakyVec (v : FVec Ideal S400x16 .f32) : FVec Ideal S400x16 .f32 :=
  select (cmpf .oge v (broadcast S400x16 (Scalar.ofBits .f32 0x00000000#32))) v
    (mulf (broadcast S400x16 (Scalar.ofBits .f32 0x3C23D70A#32)) v)

/-- Each row's maximum, as a vector of 400 entries. -/
def rowMaxVec (v : FVec Ideal S400x16 .f32) : FVec Ideal S400 .f32 :=
  multiReduction .maximumf [1] S400 v 0xFF800000#32 Gen.reduces_S400x16_S400 (.inl rfl) rfl

/-- Each entry less its row's maximum. -/
def centred (v : FVec Ideal S400x16 .f32) : FVec Ideal S400x16 .f32 :=
  subf v (broadcastTo S400x16 (shapeCast S400x1 (rowMaxVec v) Gen.shapeCasts_S400_S400x1) Gen.broadcasts_S400x1_S400x16)

/-- The logarithm of each row's sum of exponentials of the centred entries, as a column. -/
def logSumExpCol (v : FVec Ideal S400x16 .f32) : FVec Ideal S400x1 .f32 :=
  log (shapeCast S400x1
    (multiReduction .add [1] S400 (exp (centred v)) 0x00000000#32 Gen.reduces_S400x16_S400 (.inl rfl) rfl)
    Gen.shapeCasts_S400_S400x1)

/-- The row-wise log-softmax: centred entries less the logarithm of their row's sum of exponentials. -/
def logSoftmaxVec (v : FVec Ideal S400x16 .f32) : FVec Ideal S400x16 .f32 :=
  subf (centred v) (broadcastTo S400x16 (logSumExpCol v) Gen.broadcasts_S400x1_S400x16)

/-! ## Each piece read at an index -/

/-- The affine part at `(p, k)`: row `p` of the block against column `k` of the operand, plus the bias's entry `k`. -/
theorem affine_apply (a : FVec Ideal S1x400x10000 .f32) (s : FVec Ideal S10000x16 .f32) (b : FVec Ideal S1x16 .f32)
    (p : Fin 400) (k : Fin 16) :
    affine a s b (ix2 p k) = (∑ n : Fin 10000, a (ix3 0 p n) * s (ix2 n k)) + b (ix2 0 k) := by
  unfold affine
  rw [addf_apply]
  refine congrArg₂ (· + ·) ?_ ?_
  · refine (Cert.Lib.matmul_plain_zero_apply _ none _ s p k).trans ?_
    exact Finset.sum_congr rfl fun n _ =>
      congrArg (· * s (ix2 n k)) (shapeCast_1ab_ab_apply a Gen.shapeCasts_S1x400x10000_S400x10000 p n)
  · refine (broadcastTo_1b_ab_apply _ Gen.broadcasts_S1x16_S400x16 p k).trans ?_
    rw [shapeCast_self]

/-- The leaky rectifier at an index is the scalar one of the entry there. -/
theorem leakyVec_apply (v : FVec Ideal S400x16 .f32) (i : S400x16.Idx) : leakyVec v i = Cert.Gcn.leaky (v i) := rfl

/-- A row's maximum at `p`: the fold of `max` from -∞ over the 16 entries of row `p`. -/
theorem rowMaxVec_apply (v : FVec Ideal S400x16 .f32) (p : Fin 400) :
    rowMaxVec v (ix1 p) = Cert.Gcn.rowMax fun k => v (ix2 p k) :=
  Cert.Lib.multiReduction_maximumf_rows v 0xFF800000#32 Gen.reduces_S400x16_S400 (.inl rfl) rfl p

/-- A centred entry at `(p, j)`: the entry less the maximum of row `p`. -/
theorem centred_apply (v : FVec Ideal S400x16 .f32) (p : Fin 400) (j : Fin 16) :
    centred v (ix2 p j) = v (ix2 p j) - Cert.Gcn.rowMax fun k => v (ix2 p k) := by
  unfold centred
  rw [subf_apply]
  refine congrArg (v (ix2 p j) - ·) ?_
  exact (Cert.Lib.column_spread_apply (rowMaxVec v) Gen.shapeCasts_S400_S400x1 Gen.broadcasts_S400x1_S400x16 p j).trans
    (rowMaxVec_apply v p)

/-- The column of logarithms at `(p, 0)`: the logarithm of the sum over row `p` of the exponentials of its centred entries. -/
theorem logSumExpCol_apply (v : FVec Ideal S400x16 .f32) (p : Fin 400) :
    logSumExpCol v (ix2 p (0 : Fin 1))
      = Ideal.log (∑ k : Fin 16, Ideal.exp (v (ix2 p k) - Cert.Gcn.rowMax fun k' => v (ix2 p k'))) := by
  unfold logSumExpCol
  show Ideal.log _ = _
  refine congrArg Ideal.log ?_
  refine (Cert.Lib.shapeCast_a_a1_apply _ Gen.shapeCasts_S400_S400x1 p (0 : Fin 1)).trans ?_
  refine (Cert.Lib.multiReduction_add_rows (exp (centred v)) 0x00000000#32 Gen.reduces_S400x16_S400 (.inl rfl) rfl p).trans ?_
  exact Finset.sum_congr rfl fun k _ => congrArg Ideal.exp (centred_apply v p k)

/-- The row-wise log-softmax at `(p, j)` is the log-softmax of row `p` at position `j`. -/
theorem logSoftmaxVec_apply (v : FVec Ideal S400x16 .f32) (p : Fin 400) (j : Fin 16) :
    logSoftmaxVec v (ix2 p j) = Cert.Gcn.logSoftmaxRow (fun k => v (ix2 p k)) j := by
  unfold logSoftmaxVec Cert.Gcn.logSoftmaxRow
  rw [subf_apply]
  refine congrArg₂ (· - ·) (centred_apply v p j) ?_
  exact (Cert.Lib.broadcastTo_a1_ab_apply (logSumExpCol v) Gen.broadcasts_S400x1_S400x16 p j).trans
    (logSumExpCol_apply v p)

/-! ## The kernel bodies' stored values read at an index -/

/-- The first layer's scratch value: `x · W1` at `(n, j)` is the first-layer support. -/
theorem k0_pay1_apply (x : Vec Ideal S10000x128 .f32) (w : Vec Ideal S128x16 .f32) (n : Fin 10000) (j : Fin 16) :
    Gen.k0_pay1 (F := Ideal) x w (ix2 n j) = Cert.Gcn.support x w n j := by
  unfold Gen.k0_pay1
  rw [shapeCast_self]
  exact Cert.Lib.matmul_plain_zero_apply _ none x w n j

/-- The first layer's stored block at `(p, j)`: the leaky rectifier of row `p` of the affine part, against column `j` of
    the second weight matrix. -/
theorem k0_pay2_apply (a : Vec Ideal S1x400x10000 .f32) (s : Vec Ideal S10000x16 .f32) (b : Vec Ideal S1x16 .f32)
    (w2 : Vec Ideal S16x16 .f32) (p : Fin 400) (j : Fin 16) :
    Gen.k0_pay2 (F := Ideal) a s b w2 (ix2 p j)
      = ∑ k : Fin 16, Cert.Gcn.leaky ((∑ n : Fin 10000, a (ix3 0 p n) * s (ix2 n k)) + b (ix2 0 k)) * w2 (ix2 k j) := by
  have e : Gen.k0_pay2 (F := Ideal) a s b w2
      = matmul dot_S400x16_S16x16_S400x16_1_0_0_1_n_n none (leakyVec (affine a s b)) w2
          (constant S400x16 .f32 0x00000000#32) := rfl
  rw [e]
  refine (Cert.Lib.matmul_plain_zero_apply _ none (leakyVec (affine a s b)) w2 p j).trans ?_
  refine Finset.sum_congr rfl fun k _ => congrArg (· * w2 (ix2 k j)) ?_
  rw [leakyVec_apply, affine_apply]

/-- The second layer's stored block at `(p, j)`: the log-softmax of row `p` of the affine part, at position `j`. -/
theorem k1_pay1_apply (a : Vec Ideal S1x400x10000 .f32) (s2 : Vec Ideal S10000x16 .f32) (b : Vec Ideal S1x16 .f32)
    (p : Fin 400) (j : Fin 16) :
    Gen.k1_pay1 (F := Ideal) a s2 b (ix2 p j)
      = Cert.Gcn.logSoftmaxRow (fun j' => (∑ n : Fin 10000, a (ix3 0 p n) * s2 (ix2 n j')) + b (ix2 0 j')) j := by
  have e : Gen.k1_pay1 (F := Ideal) a s2 b
      = logSoftmaxVec (affine a (shapeCast S10000x16 s2 Gen.shapeCasts_S10000x16_S10000x16) b) := rfl
  rw [e, shapeCast_self, logSoftmaxVec_apply]
  exact congrArg (fun h => Cert.Gcn.logSoftmaxRow h j) (funext fun k => affine_apply a s2 b p k)

end Cert.KernelRows

end
-- ==== Proof.OnIdeal.Result.lean ====
/-
  The kernel's result array is the two-layer graph convolution of its six arguments.

  The first region walks 25 blocks of 400 rows of the first adjacency matrix. Its four other inputs are whole arrays (the
  features, the two weight matrices, and the first bias laid as one row by a reshape before the region), and its scratch
  holds the first-layer support `x · W1` from the first point on. At point `t` the block it writes back holds, at
  `(p, q)`, the second-layer support at row `400 t + p`; the 25 blocks tile the output array, so after the region that
  array is the second-layer support. The second region walks the same blocks of the second adjacency matrix, reads the
  first region's output whole, and writes back, at `(p, q)` of block `t`, the log-softmax of row `400 t + p` of
  `A₁ · support2 + b2`; again the blocks tile the result array.

  Each window's block is read once as rows of its array (a block's coordinate in the array is block index × block size +
  the coordinate inside the block), each stored value is read at an index by the lemmas on the bodies' arithmetic, and
  the array after a region is the one function all its blocks are blocks of, because every row `r` lies in the block of
  point `r / 400`.
-/
import proofs.«121101_g50766513438939_cont_8to1c4_522_2_alg».proof.Proof.OnIdeal.Run
import proofs.«121101_g50766513438939_cont_8to1c4_522_2_alg».proof.Proof.KernelRows
import proofs.«121101_g50766513438939_cont_8to1c4_522_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Layer1 Cert.KernelIdeal.Layer2 Cert.KernelIdeal.Run
open scoped BigOperators

variable {F : FTy → Type} [FloatOps F]

/-! ## The first region's windows, block by block -/

section Blocks
variable (V : (c : Dev nD) → (b : Ref sig .tc) → Buf (Elt F) ((c : Thread nD τ).loc b))

/-- The first region's block indices at every grid point: the four whole-array windows stay at block `(0, 0)`, the
    adjacency window walks the rows of the first matrix of the stack, `(0, t, 0)`, and the output window the rows of its
    array, `(t, 0)`. -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0
    ∧ win0_5.index t (0 : Fin 2) = t.val ∧ win0_5.index t (1 : Fin 2) = 0 :=
  (by decide +kernel : ∀ t : Fin grid0.N, _)

/-- The feature window's block is the whole feature array. -/
theorem iblk0_0_eq (c : Dev nD) (t : Fin cfg0.N) :
    (iblk0 V c 0 t : Vec F S10000x128 .f32) = (V c main_arg0 : S10000x128.Idx → Elt F .f32) := by
  obtain ⟨e0, e1, -⟩ := idx0 t
  funext j
  unfold iblk0
  rw [View.read_apply]
  show V c main_arg0 _ = V c main_arg0 j
  refine congrArg (V c main_arg0) (funext fun a => Fin.ext ?_)
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The first weight window's block is the whole first weight matrix. -/
theorem iblk0_1_eq (c : Dev nD) (t : Fin cfg0.N) :
    (iblk0 V c 1 t : Vec F S128x16 .f32) = (V c main_arg2 : S128x16.Idx → Elt F .f32) := by
  obtain ⟨-, -, e0, e1, -⟩ := idx0 t
  funext j
  unfold iblk0
  rw [View.read_apply]
  show V c main_arg2 _ = V c main_arg2 j
  refine congrArg (V c main_arg2) (funext fun a => Fin.ext ?_)
  match a with
  | ⟨0, _⟩ => show win0_1.index t (0 : Fin 2) * 128 + 1 * (j 0).val = (j 0).val; omega
  | ⟨1, _⟩ => show win0_1.index t (1 : Fin 2) * 16 + 1 * (j 1).val = (j 1).val; omega

/-- The bias window's block is the whole bias row. -/
theorem iblk0_2_eq (c : Dev nD) (t : Fin cfg0.N) :
    (iblk0 V c 2 t : Vec F S1x16 .f32) = (V c main_v0 : S1x16.Idx → Elt F .f32) := by
  obtain ⟨-, -, -, -, e0, e1, -⟩ := idx0 t
  funext j
  unfold iblk0
  rw [View.read_apply]
  show V c main_v0 _ = V c main_v0 j
  refine congrArg (V c main_v0) (funext fun a => Fin.ext ?_)
  match a with
  | ⟨0, _⟩ => show win0_2.index t (0 : Fin 2) * 1 + 1 * (j 0).val = (j 0).val; omega
  | ⟨1, _⟩ => show win0_2.index t (1 : Fin 2) * 16 + 1 * (j 1).val = (j 1).val; omega

/-- The second weight window's block is the whole second weight matrix. -/
theorem iblk0_3_eq (c : Dev nD) (t : Fin cfg0.N) :
    (iblk0 V c 3 t : Vec F S16x16 .f32) = (V c main_arg4 : S16x16.Idx → Elt F .f32) := by
  obtain ⟨-, -, -, -, -, -, e0, e1, -⟩ := idx0 t
  funext j
  unfold iblk0
  rw [View.read_apply]
  show V c main_arg4 _ = V c main_arg4 j
  refine congrArg (V c main_arg4) (funext fun a => Fin.ext ?_)
  match a with
  | ⟨0, _⟩ => show win0_3.index t (0 : Fin 2) * 16 + 1 * (j 0).val = (j 0).val; omega
  | ⟨1, _⟩ => show win0_3.index t (1 : Fin 2) * 16 + 1 * (j 1).val = (j 1).val; omega

/-- The adjacency window's block at point `t` is rows `400 t … 400 t + 399` of the first matrix of the stack. -/
theorem iblk0_4_apply (c : Dev nD) (t : Fin cfg0.N) (p : Fin 400) (n : Fin 10000) (r : Fin 10000)
    (hr : r.val = 400 * t.val + p.val) :
    (iblk0 V c 4 t : Vec F S1x400x10000 .f32) (ix3 (0 : Fin 1) p n)
      = (V c main_arg1 : S2x10000x10000.Idx → Elt F .f32) (ix3 (0 : Fin 2) r n) := by
  obtain ⟨-, -, -, -, -, -, -, -, e0, e1, e2, -, -⟩ := idx0 t
  unfold iblk0
  rw [View.read_apply]
  show V c main_arg1 _ = V c main_arg1 _
  refine congrArg (V c main_arg1) (funext fun a => Fin.ext ?_)
  match a with
  | ⟨0, _⟩ => show win0_4.index t (0 : Fin 3) * 1 + 1 * 0 = 0; omega
  | ⟨1, _⟩ => show win0_4.index t (1 : Fin 3) * 400 + 1 * p.val = r.val; omega
  | ⟨2, _⟩ => show win0_4.index t (2 : Fin 3) * 10000 + 1 * n.val = n.val; omega

end Blocks

/-! ## The first region's entry contents -/

section Entry
variable (m : (ℓ : Loc nD τ sig) → Buf (Elt F) ℓ)

/-- A buffer the host's two reshapes do not write is entered as launched. -/
theorem E1_of (c : Dev nD) (r : Ref sig .tc) (h : r ∉ Gen.hostOps0_W) : E1 m c r = m ((c : Thread nD τ).loc r) :=
  Gen.V1_of m c r h

/-- The first bias row is entered as the first bias vector laid as one row. -/
theorem E1_v0 (c : Dev nD) :
    (E1 m c main_v0 : S1x16.Idx → Elt F .f32)
      = shapeCast S1x16 (m ((c : Thread nD τ).loc main_arg3) : S16.Idx → Elt F .f32) Gen.shapeCasts_S16_S1x16 := by
  dsimp only [E1, U1, Gen.V1, Gen.V0, Gen.hostOps0]; after_results; rfl

/-- The second bias row is entered as the second bias vector laid as one row. -/
theorem E1_v1 (c : Dev nD) :
    (E1 m c main_v1 : S1x16.Idx → Elt F .f32)
      = shapeCast S1x16 (m ((c : Thread nD τ).loc main_arg5) : S16.Idx → Elt F .f32) Gen.shapeCasts_S16_S1x16 := by
  dsimp only [E1, U1, Gen.V1, Gen.V0, Gen.hostOps0]; after_results; rfl

/-- The first bias row at `(0, k)` is the bias vector's entry `k`. -/
theorem E1_v0_apply (c : Dev nD) (k : Fin 16) :
    (E1 m c main_v0 : S1x16.Idx → Elt F .f32) (ix2 (0 : Fin 1) k)
      = (m ((c : Thread nD τ).loc main_arg3) : S16.Idx → Elt F .f32) (ix1 k) := by
  rw [E1_v0]; exact shapeCast_a_1a_apply _ _ (0 : Fin 1) k

/-- The second bias row at `(0, k)` is the bias vector's entry `k`. -/
theorem E1_v1_apply (c : Dev nD) (k : Fin 16) :
    (E1 m c main_v1 : S1x16.Idx → Elt F .f32) (ix2 (0 : Fin 1) k)
      = (m ((c : Thread nD τ).loc main_arg5) : S16.Idx → Elt F .f32) (ix1 k) := by
  rw [E1_v1]; exact shapeCast_a_1a_apply _ _ (0 : Fin 1) k

end Entry

/-! ## The first layer's result -/

section Layer1
variable (m : (ℓ : Loc nD τ sig) → Buf (Elt Ideal) ℓ)

/-- The node features as launched. -/
abbrev argX (c : Dev nD) : Cert.Gcn.Mat 10000 128 := m ((c : Thread nD τ).loc main_arg0)
/-- The two stacked adjacency matrices as launched. -/
abbrev argA (c : Dev nD) : Cert.Gcn.Stk 2 10000 10000 := m ((c : Thread nD τ).loc main_arg1)
/-- The first weight matrix as launched. -/
abbrev argW1 (c : Dev nD) : Cert.Gcn.Mat 128 16 := m ((c : Thread nD τ).loc main_arg2)
/-- The first bias vector as launched. -/
abbrev argB1 (c : Dev nD) : Cert.Gcn.Vct 16 := m ((c : Thread nD τ).loc main_arg3)
/-- The second weight matrix as launched. -/
abbrev argW2 (c : Dev nD) : Cert.Gcn.Mat 16 16 := m ((c : Thread nD τ).loc main_arg4)
/-- The second bias vector as launched. -/
abbrev argB2 (c : Dev nD) : Cert.Gcn.Vct 16 := m ((c : Thread nD τ).loc main_arg5)

/-- The second-layer support of the launched arrays, as an array over `[10000, 16]`: what the first region leaves in its
    output array. -/
abbrev G1 (c : Dev nD) : Cert.Gcn.Mat 10000 16 :=
  Cert.Gcn.asMat (Cert.Gcn.support2 (argX m c) (argA m c) (argW1 m c) (argB1 m c) (argW2 m c))

/-- An array given by a function of coordinates, read at an index with known coordinates. -/
theorem asMat_at {a b : ℕ} (f : Fin a → Fin b → EReal) (i : (⟨2, ![a, b]⟩ : Shape).Idx) (r : Fin a) (q : Fin b)
    (h0 : (i 0).val = r.val) (h1 : (i 1).val = q.val) : Cert.Gcn.asMat f i = f r q := by
  have e : i = ix2 r q := funext fun d => by
    match d with
    | ⟨0, _⟩ => exact Fin.ext h0
    | ⟨1, _⟩ => exact Fin.ext h1
  rw [e]; rfl

/-- The scratch after the first point is the first-layer support of the launched features and weights. -/
theorem sup_apply (c : Dev nD) (n : Fin 10000) (k : Fin 16) :
    sup (E1 m) c (ix2 n k) = Cert.Gcn.support (argX m c) (argW1 m c) n k := by
  unfold sup
  refine (Cert.KernelRows.k0_pay1_apply (iblk0 (E1 m) c 0 t0) (iblk0 (E1 m) c 1 t0) n k).trans ?_
  unfold Cert.Gcn.support
  refine Finset.sum_congr rfl fun l _ => congrArg₂ (· * ·) ?_ ?_
  · exact (congrFun (iblk0_0_eq (E1 m) c t0) _).trans (congrFun (E1_of m c main_arg0 (by decide)) _)
  · exact (congrFun (iblk0_1_eq (E1 m) c t0) _).trans (congrFun (E1_of m c main_arg2 (by decide)) _)

/-- What the body leaves in the output's staging buffer at point `t`, at `(p, q)`: the second-layer support at row
    `400 t + p`. -/
theorem pay0_apply (c : Dev nD) (t : Fin cfg0.N) (p : Fin 400) (q : Fin 16) (r : Fin 10000)
    (hr : r.val = 400 * t.val + p.val) :
    k0_pay2 (F := Ideal) (iblk0 (E1 m) c 4 t) (sup (E1 m) c) (iblk0 (E1 m) c 2 t) (iblk0 (E1 m) c 3 t) (ix2 p q)
      = Cert.Gcn.support2 (argX m c) (argA m c) (argW1 m c) (argB1 m c) (argW2 m c) r q := by
  refine (Cert.KernelRows.k0_pay2_apply (iblk0 (E1 m) c 4 t) (sup (E1 m) c) (iblk0 (E1 m) c 2 t) (iblk0 (E1 m) c 3 t) p q).trans ?_
  unfold Cert.Gcn.support2 Cert.Gcn.support2Of Cert.Gcn.hiddenOf
  refine Finset.sum_congr rfl fun k _ => congrArg₂ (· * ·) (congrArg Cert.Gcn.leaky (congrArg₂ (· + ·)
    (Finset.sum_congr rfl fun n _ => congrArg₂ (· * ·) ?_ ?_) ?_)) ?_
  · exact (iblk0_4_apply (E1 m) c t p n r hr).trans (congrFun (E1_of m c main_arg1 (by decide)) _)
  · exact sup_apply m c n k
  · exact (congrFun (iblk0_2_eq (E1 m) c t) _).trans (E1_v0_apply m c k)
  · exact (congrFun (iblk0_3_eq (E1 m) c t) _).trans (congrFun (E1_of m c main_arg4 (by decide)) _)

/-- What point `t` writes back to the output array is block `t` of the second-layer support. -/
theorem flushed0_eq (c : Dev nD) (t : Fin cfg0.N) :
    (dat0 (E1 m) c).flushed 5 t = ((cfg0.win 5).blk t).view.read (Elt Ideal) (G1 m c) := by
  show (cfg0.win 5).cut (grid0.coords t) ((dat0 (E1 m) c).after 5 t) = _
  rw [after0_5]
  obtain ⟨-, -, -, -, -, -, -, -, -, -, -, e0, e1⟩ := idx0 t
  have hN : cfg0.N = 25 := N_0
  funext j
  obtain ⟨p, q, rfl⟩ : ∃ (p : Fin 400) (q : Fin 16), j = ix2 p q := ⟨j 0, j 1, eq_ix2 j⟩
  have ht : t.val < 25 := hN ▸ t.isLt
  rw [View.read_apply]
  refine (pay0_apply m c t p q ⟨400 * t.val + p.val, by omega⟩ rfl).trans (asMat_at _ _ _ _ ?_ ?_).symm
  · show win0_5.index t (0 : Fin 2) * 400 + 1 * p.val = 400 * t.val + p.val; omega
  · show win0_5.index t (1 : Fin 2) * 16 + 1 * q.val = q.val; omega

/-- Every row of the output array lies in the block of the point `row / 400`. -/
theorem cover0 (i : S10000x16.Idx) :
    ∃ t : Fin cfg0.N, (cfg0.win 5).flush t = true ∧ i ∈ ((cfg0.win 5).blk t).view.set := by
  have hN : cfg0.N = 25 := N_0
  have hi0 : (i 0).val < 10000 := (i 0).isLt
  have hi1 : (i 1).val < 16 := (i 1).isLt
  obtain ⟨t, ht⟩ : ∃ t : Fin cfg0.N, t.val = (i 0).val / 400 :=
    ⟨⟨(i 0).val / 400, Nat.lt_of_lt_of_eq (by omega : (i 0).val / 400 < 25) hN.symm⟩, rfl⟩
  obtain ⟨-, -, -, -, -, -, -, -, -, -, -, e0, e1⟩ := idx0 t
  refine ⟨t, flush0_5 t, ?_⟩
  show i ∈ ((View.whole main_v2).slice (win0_5.rect t)).set
  rw [View.set_slice_whole, Rect.mem_set_unit]
  intro a
  match a with
  | ⟨0, _⟩ =>
    show win0_5.index t (0 : Fin 2) * 400 ≤ (i 0).val ∧ (i 0).val < win0_5.index t (0 : Fin 2) * 400 + 400
    omega
  | ⟨1, _⟩ =>
    show win0_5.index t (1 : Fin 2) * 16 ≤ (i 1).val ∧ (i 1).val < win0_5.index t (1 : Fin 2) * 16 + 16
    omega

/-- THE FIRST LAYER'S RESULT: after the first region its output array holds the second-layer support. -/
theorem layer1_result (c : Dev nD) : (dat0 (E1 m) c).arrAt 5 cfg0.N = G1 m c :=
  (dat0 (E1 m) c).arrAt_eq_of_cover 5 (G1 m c) (fun t _ => flushed0_eq m c t) (cover0)

end Layer1

/-! ## The second region's windows, block by block -/

section Blocks2
variable (V : (c : Dev nD) → (b : Ref sig .tc) → Buf (Elt F) ((c : Thread nD τ).loc b))

/-- The second region's block indices at every grid point: the bias row and the support stay at block `(0, 0)`, the
    adjacency window walks the rows of the second matrix of the stack, `(1, t, 0)`, and the output window the rows of its
    array, `(t, 0)`. -/
theorem idx1 : ∀ t : Fin cfg1.N,
    win1_0.index t (0 : Fin 2) = 0 ∧ win1_0.index t (1 : Fin 2) = 0
    ∧ win1_1.index t (0 : Fin 3) = 1 ∧ win1_1.index t (1 : Fin 3) = t.val ∧ win1_1.index t (2 : Fin 3) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The bias window's block is the whole bias row. -/
theorem iblk1_0_eq (c : Dev nD) (t : Fin cfg1.N) :
    (iblk1 V c 0 t : Vec F S1x16 .f32) = (V c main_v1 : S1x16.Idx → Elt F .f32) := by
  obtain ⟨e0, e1, -⟩ := idx1 t
  funext j
  unfold iblk1
  rw [View.read_apply]
  show V c main_v1 _ = V c main_v1 j
  refine congrArg (V c main_v1) (funext fun a => Fin.ext ?_)
  match a with
  | ⟨0, _⟩ => show win1_0.index t (0 : Fin 2) * 1 + 1 * (j 0).val = (j 0).val; omega
  | ⟨1, _⟩ => show win1_0.index t (1 : Fin 2) * 16 + 1 * (j 1).val = (j 1).val; omega

/-- The adjacency window's block at point `t` is rows `400 t … 400 t + 399` of the second matrix of the stack. -/
theorem iblk1_1_apply (c : Dev nD) (t : Fin cfg1.N) (p : Fin 400) (n : Fin 10000) (r : Fin 10000)
    (hr : r.val = 400 * t.val + p.val) :
    (iblk1 V c 1 t : Vec F S1x400x10000 .f32) (ix3 (0 : Fin 1) p n)
      = (V c main_arg1 : S2x10000x10000.Idx → Elt F .f32) (ix3 (1 : Fin 2) r n) := by
  obtain ⟨-, -, e0, e1, e2, -⟩ := idx1 t
  unfold iblk1
  rw [View.read_apply]
  show V c main_arg1 _ = V c main_arg1 _
  refine congrArg (V c main_arg1) (funext fun a => Fin.ext ?_)
  match a with
  | ⟨0, _⟩ => show win1_1.index t (0 : Fin 3) * 1 + 1 * 0 = 1; omega
  | ⟨1, _⟩ => show win1_1.index t (1 : Fin 3) * 400 + 1 * p.val = r.val; omega
  | ⟨2, _⟩ => show win1_1.index t (2 : Fin 3) * 10000 + 1 * n.val = n.val; omega

/-- The support window's block is the whole array the first region left. -/
theorem iblk1_2_eq (c : Dev nD) (t : Fin cfg1.N) :
    (iblk1 V c 2 t : Vec F S10000x16 .f32) = (V c main_v2 : S10000x16.Idx → Elt F .f32) := by
  obtain ⟨-, -, -, -, -, e0, e1, -⟩ := idx1 t
  funext j
  unfold iblk1
  rw [View.read_apply]
  show V c main_v2 _ = V c main_v2 j
  refine congrArg (V c main_v2) (funext fun a => Fin.ext ?_)
  match a with
  | ⟨0, _⟩ => show win1_2.index t (0 : Fin 2) * 10000 + 1 * (j 0).val = (j 0).val; omega
  | ⟨1, _⟩ => show win1_2.index t (1 : Fin 2) * 16 + 1 * (j 1).val = (j 1).val; omega

end Blocks2

/-! ## The second layer's result -/

section Layer2
variable (m : (ℓ : Loc nD τ sig) → Buf (Elt Ideal) ℓ)

/-- The adjacency stack is entered by the second region as launched: the first region only reads it. -/
theorem E2_arg1 (c : Dev nD) : E2 m c main_arg1 = m ((c : Thread nD τ).loc main_arg1) :=
  calc E2 m c main_arg1
    _ = U1 m c (Proc.devRef .tc main_arg1) :=
        (U2_arr m c 4).trans (((dat0 (E1 m) c).arrAt_in 4 rfl _).trans (A_eq0 (E1 m) c 4))
    _ = m ((c : Thread nD τ).loc main_arg1) := Gen.V1_of m c main_arg1 (by decide)

/-- The second region finds the first region's output array at the second-layer support. -/
theorem E2_v2 (c : Dev nD) : E2 m c main_v2 = G1 m c := (U2_arr m c 5).trans (layer1_result m c)

/-- The second bias row is not touched by the first region. -/
theorem E2_v1 (c : Dev nD) : E2 m c main_v1 = E1 m c main_v1 := U2_of_ne m c main_v1 (by decide)

/-- The network's result of the launched arrays, as an array over `[10000, 16]`. -/
abbrev G2 (c : Dev nD) : Cert.Gcn.Mat 10000 16 :=
  Cert.Gcn.outArr (argX m c) (argA m c) (argW1 m c) (argB1 m c) (argW2 m c) (argB2 m c)

/-- What the body leaves in the output's staging buffer at point `t`, at `(p, q)`: the network's result at row
    `400 t + p`. -/
theorem pay1_apply (c : Dev nD) (t : Fin cfg1.N) (p : Fin 400) (q : Fin 16) (r : Fin 10000)
    (hr : r.val = 400 * t.val + p.val) :
    k1_pay1 (F := Ideal) (iblk1 (E2 m) c 1 t) (iblk1 (E2 m) c 2 t) (iblk1 (E2 m) c 0 t) (ix2 p q)
      = Cert.Gcn.out (argX m c) (argA m c) (argW1 m c) (argB1 m c) (argW2 m c) (argB2 m c) r q := by
  refine (Cert.KernelRows.k1_pay1_apply (iblk1 (E2 m) c 1 t) (iblk1 (E2 m) c 2 t) (iblk1 (E2 m) c 0 t) p q).trans ?_
  unfold Cert.Gcn.out
  refine congrArg (fun h => Cert.Gcn.logSoftmaxRow h q) (funext fun j' => ?_)
  unfold Cert.Gcn.logitsOf
  refine congrArg₂ (· + ·) (Finset.sum_congr rfl fun n _ => congrArg₂ (· * ·) ?_ ?_) ?_
  · exact (iblk1_1_apply (E2 m) c t p n r hr).trans (congrFun (E2_arg1 m c) _)
  · exact (congrFun (iblk1_2_eq (E2 m) c t) _).trans (congrFun (E2_v2 m c) _)
  · exact (congrFun (iblk1_0_eq (E2 m) c t) _).trans ((congrFun (E2_v1 m c) _).trans (E1_v1_apply m c j'))

/-- What point `t` writes back to the result array is block `t` of the network's result. -/
theorem flushed1_eq (c : Dev nD) (t : Fin cfg1.N) :
    (dat1 (E2 m) c).flushed 3 t = ((cfg1.win 3).blk t).view.read (Elt Ideal) (G2 m c) := by
  show (cfg1.win 3).cut (grid1.coords t) ((dat1 (E2 m) c).after 3 t) = _
  rw [after1_3]
  obtain ⟨-, -, -, -, -, -, -, e0, e1⟩ := idx1 t
  have hN : cfg1.N = 25 := N_1
  funext j
  obtain ⟨p, q, rfl⟩ : ∃ (p : Fin 400) (q : Fin 16), j = ix2 p q := ⟨j 0, j 1, eq_ix2 j⟩
  have ht : t.val < 25 := hN ▸ t.isLt
  rw [View.read_apply]
  refine (pay1_apply m c t p q ⟨400 * t.val + p.val, by omega⟩ rfl).trans (asMat_at _ _ _ _ ?_ ?_).symm
  · show win1_3.index t (0 : Fin 2) * 400 + 1 * p.val = 400 * t.val + p.val; omega
  · show win1_3.index t (1 : Fin 2) * 16 + 1 * q.val = q.val; omega

/-- Every row of the result array lies in the block of the point `row / 400`. -/
theorem cover1 (i : S10000x16.Idx) :
    ∃ t : Fin cfg1.N, (cfg1.win 3).flush t = true ∧ i ∈ ((cfg1.win 3).blk t).view.set := by
  have hN : cfg1.N = 25 := N_1
  have hi0 : (i 0).val < 10000 := (i 0).isLt
  have hi1 : (i 1).val < 16 := (i 1).isLt
  obtain ⟨t, ht⟩ : ∃ t : Fin cfg1.N, t.val = (i 0).val / 400 :=
    ⟨⟨(i 0).val / 400, Nat.lt_of_lt_of_eq (by omega : (i 0).val / 400 < 25) hN.symm⟩, rfl⟩
  obtain ⟨-, -, -, -, -, -, -, e0, e1⟩ := idx1 t
  refine ⟨t, flush1_3 t, ?_⟩
  show i ∈ ((View.whole main_v3).slice (win1_3.rect t)).set
  rw [View.set_slice_whole, Rect.mem_set_unit]
  intro a
  match a with
  | ⟨0, _⟩ =>
    show win1_3.index t (0 : Fin 2) * 400 ≤ (i 0).val ∧ (i 0).val < win1_3.index t (0 : Fin 2) * 400 + 400
    omega
  | ⟨1, _⟩ =>
    show win1_3.index t (1 : Fin 2) * 16 ≤ (i 1).val ∧ (i 1).val < win1_3.index t (1 : Fin 2) * 16 + 16
    omega

/-- THE RESULT: after the second region the result array holds the two-layer network's value of the six arrays as
    launched. -/
theorem result (c : Dev nD) :
    (dat1 (E2 m) c).arrAt 3 cfg1.N
      = Cert.Gcn.outArr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  (dat1 (E2 m) c).arrAt_eq_of_cover 3 (G2 m c) (fun t _ => flushed1_eq m c t) (cover1)

end Layer2

end Cert.KernelIdeal.Result

end
-- ==== Proof.RefStages.lean ====
/-
  The reference network, stage by stage, as functions of arrays.

  A two-layer graph convolution followed by a row-wise log-softmax: the node features times the first weights; the
  first adjacency matrix (layer 0 of the stack) applied to that, plus the first bias, through the leaky rectifier; the
  result times the second weights; the second adjacency matrix applied to that, plus the second bias; and each row of
  the result minus its maximum, minus the logarithm of the row's sum of exponentials. Each stage is one definition over
  whole arrays, for any float values; `refOut` composes them.
-/
import proofs.«121101_g50766513438939_cont_8to1c4_522_2_alg».proof.Proof.Gen.ReferenceIdeal

noncomputable section

namespace Cert.Gcn.Ref

open Cert.ReferenceIdeal Cert.ReferenceIdeal.Gen Idealize.ShloMosaic

variable {F : FTy → Type} [FloatOps F]

/-- An array of f32 values over the index type of the shape `S`. -/
abbrev Arr (F : FTy → Type) (S : Shape) : Type := FVec F S .f32

/-- `x · W1`. -/
def supportArr (x : Arr F S10000x128) (W1 : Arr F S128x16) : Arr F S10000x16 :=
  Host.dotGeneral dot_S10000x128_S128x16_S10000x16_1_0_0_1_n_n none x W1

/-- The first adjacency matrix: layer 0 of the stack, its unit axis dropped. -/
def adj0 (A : Arr F S2x10000x10000) : Arr F S10000x10000 :=
  shapeCast S10000x10000 (extractStridedSlice S1x10000x10000 ![0, 0, 0] A slices_S2x10000x10000_S1x10000x10000_0_0_0)
    shapeCasts_S1x10000x10000_S10000x10000

/-- The second adjacency matrix: layer 1 of the stack, its unit axis dropped. -/
def adj1 (A : Arr F S2x10000x10000) : Arr F S10000x10000 :=
  shapeCast S10000x10000 (extractStridedSlice S1x10000x10000 ![1, 0, 0] A slices_S2x10000x10000_S1x10000x10000_1_0_0)
    shapeCasts_S1x10000x10000_S10000x10000

/-- A bias vector laid as one row and repeated down the 10000 rows. -/
def biasRows (b : Arr F S16) : Arr F S10000x16 :=
  broadcastInDim S10000x16 ![0, 1] bcast_S1x16_S10000x16_0_1 (broadcastInDim S1x16 ![1] bcast_S16_S1x16_1 b)

/-- An adjacency matrix applied to a support, plus the bias: `M · s + b`. -/
def layerArr (M : Arr F S10000x10000) (s : Arr F S10000x16) (b : Arr F S16) : Arr F S10000x16 :=
  addf (Host.dotGeneral dot_S10000x10000_S10000x16_S10000x16_1_0_0_1_n_n none M s) (biasRows b)

/-- The leaky rectifier, entry by entry: `h` where `h ≥ 0`, else the slope times `h`. -/
def leakyArr (h : Arr F S10000x16) : Arr F S10000x16 :=
  select (cmpf .oge h (broadcastInDim S10000x16 ![] bcast_S_S10000x16 (constant S_ .f32 0x00000000#32))) h
    (mulf (broadcastInDim S10000x16 ![] bcast_S_S10000x16 (constant S_ .f32 0x3C23D70A#32)) h)

/-- `hidden · W2`. -/
def support2Arr (h : Arr F S10000x16) (W2 : Arr F S16x16) : Arr F S10000x16 :=
  Host.dotGeneral dot_S10000x16_S16x16_S10000x16_1_0_0_1_n_n none h W2

/-- Each row's maximum: the maximum of -∞ and the fold of `max` over the row from -∞. -/
def rowMaxArr (z : Arr F S10000x16) : Arr F S10000 :=
  maximumf (broadcastInDim S10000 ![] bcast_S_S10000 (constant S_ .f32 0xFF800000#32))
    (Host.reduce FloatOps.maximumf z (constant S_ .f32 0xFF800000#32) reducesTo_S10000x16_S10000_d1 h_S_)

/-- A vector of one entry per row as a column. -/
def colArr (v : Arr F S10000) : Arr F S10000x1 :=
  broadcastInDim S10000x1 ![0] bcast_S10000_S10000x1_0 v

/-- A column repeated along the 16 columns. -/
def spreadArr (v : Arr F S10000x1) : Arr F S10000x16 :=
  broadcastInDim S10000x16 ![0, 1] bcast_S10000x1_S10000x16_0_1 v

/-- Each entry minus its row's maximum. -/
def shiftedArr (z : Arr F S10000x16) : Arr F S10000x16 :=
  subf z (spreadArr (colArr (rowMaxArr z)))

/-- Each row's sum of exponentials of the shifted entries, from zero. -/
def sumExpArr (z : Arr F S10000x16) : Arr F S10000 :=
  Host.reduceAdd (Host.exp (shiftedArr z)) (constant S_ .f32 0x00000000#32) reducesTo_S10000x16_S10000_d1 h_S_

/-- The row-wise log-softmax. -/
def logSoftmaxArr (z : Arr F S10000x16) : Arr F S10000x16 :=
  subf (shiftedArr z) (spreadArr (Host.log (colArr (sumExpArr z))))

/-- The reference's result as a function of its six argument arrays. -/
def refOut (x : Arr F S10000x128) (A : Arr F S2x10000x10000) (W1 : Arr F S128x16) (b1 : Arr F S16)
    (W2 : Arr F S16x16) (b2 : Arr F S16) : Arr F S10000x16 :=
  logSoftmaxArr (layerArr (adj1 A) (support2Arr (leakyArr (layerArr (adj0 A) (supportArr x W1) b1)) W2) b2)

end Cert.Gcn.Ref

end
-- ==== Proof.RefRun.lean ====
/-
  The reference network as one straight line of host operations, and what it leaves in memory.

  The reference computes a two-layer graph convolution followed by a row-wise log-softmax. Its entry function is
  a straight line of tensor operations with two calls of local functions (the leaky rectifier, which itself calls
  a selection, and the log-softmax); a call executes the callee's body on the caller's operands, so with the calls
  unfolded the whole program is ONE list of thirty-seven operations, each writing a buffer of its own. Run in
  order from any memory, the list leaves in the result buffer the composition of the operations' functions applied
  to the six argument arrays — `refOut`, built stage by stage — and leaves the arguments as they were.
-/
import proofs.«121101_g50766513438939_cont_8to1c4_522_2_alg».proof.Proof.RefStages
import Idealize.ShloMosaic.Lib.StableHlo.Run

noncomputable section

namespace Cert.Gcn.Ref

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations -/

/-- The entry function's thirty-seven operations in order, the calls unfolded: eight of its own (the first product, the
    first adjacency matrix, the first layer's sum with its bias, the slope); the rectifier's six and the selection it
    calls; seven more of its own (the second product, the second adjacency matrix, the second layer); the log-softmax's
    fifteen. -/
abbrev ops : List (HloOp τ sig (Elt F)) :=
  [ binary main_arg0 main_arg2 main_v0 ((fun l r => Host.dotGeneral dot_S10000x128_S128x16_S10000x16_1_0_0_1_n_n none l r) : (⟨S10000x128, .f32⟩ : BufTy).Contents (Elt F) → (⟨S128x16, .f32⟩ : BufTy).Contents (Elt F) → (⟨S10000x16, .f32⟩ : BufTy).Contents (Elt F)),
    unary main_arg1 main_v1 ((extractStridedSlice S1x10000x10000 ![0, 0, 0] · slices_S2x10000x10000_S1x10000x10000_0_0_0) : (⟨S2x10000x10000, .f32⟩ : BufTy).Contents (Elt F) → (⟨S1x10000x10000, .f32⟩ : BufTy).Contents (Elt F)),
    reshape main_v1 main_v2 rfl shapeCasts_S1x10000x10000_S10000x10000,
    binary main_v2 main_v0 main_v3 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg3 main_v4 (broadcastInDim S1x16 ![1] bcast_S16_S1x16_1 : (⟨S16, .f32⟩ : BufTy).Contents (Elt F) → (⟨S1x16, .f32⟩ : BufTy).Contents (Elt F)),
    unary main_v4 main_v5 (broadcastInDim S10000x16 ![0, 1] bcast_S1x16_S10000x16_0_1 : (⟨S1x16, .f32⟩ : BufTy).Contents (Elt F) → (⟨S10000x16, .f32⟩ : BufTy).Contents (Elt F)),
    binary main_v3 main_v5 main_v6 (addf : (⟨S10000x16, .f32⟩ : BufTy).Contents (Elt F) → (⟨S10000x16, .f32⟩ : BufTy).Contents (Elt F) → (⟨S10000x16, .f32⟩ : BufTy).Contents (Elt F)),
    nullary main_cst (constant S_ .f32 0x3C23D70A#32),
    TRef.nullary main_call0.cst (constant S_ .f32 0x00000000#32),
    TRef.unary main_call0.cst main_call0.v0 (broadcastInDim S10000x16 ![] bcast_S_S10000x16),
    TRef.binary (.of main_v6 : TRef sig ⟨S10000x16, .f32⟩) main_call0.v0 main_call0.v1 (cmpf .oge),
    TRef.unary (.of main_cst : TRef sig ⟨S_, .f32⟩) main_call0.v2 id,
    TRef.unary main_call0.v2 main_call0.v3 (broadcastInDim S10000x16 ![] bcast_S_S10000x16),
    TRef.binary main_call0.v3 (.of main_v6 : TRef sig ⟨S10000x16, .f32⟩) main_call0.v4 mulf,
    TRef.ternary main_call0.v1 (.of main_v6 : TRef sig ⟨S10000x16, .f32⟩) main_call0.v4 main_call0.call0.v0 select,
    binary main_v7 main_arg4 main_v8 ((fun l r => Host.dotGeneral dot_S10000x16_S16x16_S10000x16_1_0_0_1_n_n none l r) : (⟨S10000x16, .f32⟩ : BufTy).Contents (Elt F) → (⟨S16x16, .f32⟩ : BufTy).Contents (Elt F) → (⟨S10000x16, .f32⟩ : BufTy).Contents (Elt F)),
    unary main_arg1 main_v9 ((extractStridedSlice S1x10000x10000 ![1, 0, 0] · slices_S2x10000x10000_S1x10000x10000_1_0_0) : (⟨S2x10000x10000, .f32⟩ : BufTy).Contents (Elt F) → (⟨S1x10000x10000, .f32⟩ : BufTy).Contents (Elt F)),
    reshape main_v9 main_v10 rfl shapeCasts_S1x10000x10000_S10000x10000,
    binary main_v10 main_v8 main_v11 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg5 main_v12 (broadcastInDim S1x16 ![1] bcast_S16_S1x16_1 : (⟨S16, .f32⟩ : BufTy).Contents (Elt F) → (⟨S1x16, .f32⟩ : BufTy).Contents (Elt F)),
    unary main_v12 main_v13 (broadcastInDim S10000x16 ![0, 1] bcast_S1x16_S10000x16_0_1 : (⟨S1x16, .f32⟩ : BufTy).Contents (Elt F) → (⟨S10000x16, .f32⟩ : BufTy).Contents (Elt F)),
    binary main_v11 main_v13 main_v14 (addf : (⟨S10000x16, .f32⟩ : BufTy).Contents (Elt F) → (⟨S10000x16, .f32⟩ : BufTy).Contents (Elt F) → (⟨S10000x16, .f32⟩ : BufTy).Contents (Elt F)),
    TRef.nullary main_call1.cst (constant S_ .f32 0xFF800000#32),
    TRef.binary (.of main_v14 : TRef sig ⟨S10000x16, .f32⟩) main_call1.cst main_call1.v0 ((fun x v => Host.reduce FloatOps.maximumf x v reducesTo_S10000x16_S10000_d1 h_S_) : (⟨S10000x16, .f32⟩ : BufTy).Contents (Elt F) → (⟨S_, .f32⟩ : BufTy).Contents (Elt F) → (⟨S10000, .f32⟩ : BufTy).Contents (Elt F)),
    TRef.nullary main_call1.cst_0 (constant S_ .f32 0xFF800000#32),
    TRef.unary main_call1.cst_0 main_call1.v1 (broadcastInDim S10000 ![] bcast_S_S10000),
    TRef.binary main_call1.v1 main_call1.v0 main_call1.v2 maximumf,
    TRef.unary main_call1.v2 main_call1.v3 (broadcastInDim S10000x1 ![0] bcast_S10000_S10000x1_0),
    TRef.unary main_call1.v3 main_call1.v4 (broadcastInDim S10000x16 ![0, 1] bcast_S10000x1_S10000x16_0_1),
    TRef.binary (.of main_v14 : TRef sig ⟨S10000x16, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 ((fun x v => Host.reduceAdd x v reducesTo_S10000x16_S10000_d1 h_S_) : (⟨S10000x16, .f32⟩ : BufTy).Contents (Elt F) → (⟨S_, .f32⟩ : BufTy).Contents (Elt F) → (⟨S10000, .f32⟩ : BufTy).Contents (Elt F)),
    TRef.unary main_call1.v7 main_call1.v8 (broadcastInDim S10000x1 ![0] bcast_S10000_S10000x1_0),
    TRef.unary main_call1.v8 main_call1.v9 Host.log,
    TRef.unary main_call1.v9 main_call1.v10 (broadcastInDim S10000x16 ![0, 1] bcast_S10000x1_S10000x16_0_1),
    TRef.binary main_call1.v5 main_call1.v10 main_call1.v11 subf ]

/-- The entry function is that straight line: with the local functions' definitions unfolded at their calls and the
    sequencing reassociated, both sides are one chain of operation steps. -/
theorem main_eq (c : Dev nD) : main (F := F) c = seq ops := by
  simp only [main, fn_leaky_relu.body, fn_where.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches tensor-value buffers only. -/
theorem ops_sub : (ops : List (HloOp τ sig (Elt F))).Forall fun op => op.bufs ⊆ tcRefs τ sig :=
  ⟨binary_bufs_sub .., unary_bufs_sub .., reshape_bufs_sub .., binary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., reshape_bufs_sub .., binary_bufs_sub .., unary_bufs_sub .., unary_bufs_sub ..,
    binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- From any memory with zero counters every weakly fair execution of the entry function terminates, and every
    tensor-value buffer ends at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- What the result buffer holds after the line, from any contents: the stages composed, applied to the arguments'
    contents. Each operation's result at its own buffer is its function's value and at any other buffer what was
    there; the transports between a typed reference's carried type and its buffer's type are identities at these
    literal references; what is left is the composition itself. -/
theorem out_eq (V : Valuation τ sig (Elt F)) :
    after ops V (main_v15 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [TRef.toBuf, TRef.ofBuf, cast_eq, id_eq]
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of the
    entry function terminates with the result buffer at `refOut` of the arguments' launch contents and the six
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v15).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_all m ρ)

end Cert.Gcn.Ref

end
-- ==== Proof.RefValue.lean ====
/-
  The reference network's stages read at an index: the composed array is the two-layer graph convolution, entry by
  entry.

  On the extended reals every stage of the reference, read at one index, is the textbook expression of the
  specification: a product of a matrix with a matrix at `(p, q)` is the row-by-column sum; layer `l` of the
  adjacency stack with its unit axis dropped reads `A (l, r, n)` at `(r, n)`; a bias laid as a row and repeated down the
  rows reads its entry `j` at `(r, j)`; the rectifier acts entry by entry; the row maximum, the maximum of -∞ with the
  fold of `max` from -∞ over the row, is that fold; the sum of exponentials from zero is the plain sum. Composing the
  stages gives `Cert.Gcn.outArr`.
-/
import proofs.«121101_g50766513438939_cont_8to1c4_522_2_alg».proof.Proof.RefStages
import proofs.«121101_g50766513438939_cont_8to1c4_522_2_alg».proof.Proof.Spec
import proofs.«121101_g50766513438939_cont_8to1c4_522_2_alg».proof.Proof.LibMatDot
import proofs.«121101_g50766513438939_cont_8to1c4_522_2_alg».proof.Proof.LibRowSum
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.Gcn.Ref

open Cert.ReferenceIdeal Cert.ReferenceIdeal.Gen Idealize.ShloMosaic Idealize.ShloMosaic.ValueIdx
open scoped BigOperators

/-! ## The matrix products -/

/-- `x · W1` at `(n, j)`. -/
theorem supportArr_apply (x : Arr Ideal S10000x128) (W1 : Arr Ideal S128x16) (n : Fin 10000) (j : Fin 16) :
    supportArr x W1 (ix2 n j) = Cert.Gcn.support x W1 n j :=
  Cert.Lib.dotGeneral_plain_apply dot_S10000x128_S128x16_S10000x16_1_0_0_1_n_n_wf none .single x W1 n j

/-- `h · W2` at `(r, j)`: the sum over the 16 hidden coordinates. -/
theorem support2Arr_apply (h : Arr Ideal S10000x16) (W2 : Arr Ideal S16x16) (r : Fin 10000) (j : Fin 16) :
    support2Arr h W2 (ix2 r j) = ∑ k : Fin 16, h (ix2 r k) * W2 (ix2 k j) :=
  Cert.Lib.dotGeneral_plain_apply dot_S10000x16_S16x16_S10000x16_1_0_0_1_n_n_wf none .single h W2 r j

/-! ## The adjacency matrices -/

/-- Layer 0 of the stack at `(r, n)`. -/
theorem adj0_apply (A : Arr Ideal S2x10000x10000) (r n : Fin 10000) : adj0 A (ix2 r n) = A (ix3 (0 : Fin 2) r n) := by
  unfold adj0
  rw [shapeCast_1ab_ab_apply]
  refine extractStridedSlice_apply _ A _ _ _ fun a => ?_
  match a with
  | ⟨0, _⟩ => rfl
  | ⟨1, _⟩ => exact (Nat.zero_add _).symm
  | ⟨2, _⟩ => exact (Nat.zero_add _).symm

/-- Layer 1 of the stack at `(r, n)`. -/
theorem adj1_apply (A : Arr Ideal S2x10000x10000) (r n : Fin 10000) : adj1 A (ix2 r n) = A (ix3 (1 : Fin 2) r n) := by
  unfold adj1
  rw [shapeCast_1ab_ab_apply]
  refine extractStridedSlice_apply _ A _ _ _ fun a => ?_
  match a with
  | ⟨0, _⟩ => rfl
  | ⟨1, _⟩ => exact (Nat.zero_add _).symm
  | ⟨2, _⟩ => exact (Nat.zero_add _).symm

/-! ## A layer: adjacency times support, plus the bias -/

/-- A bias laid as one row and repeated down the rows reads, at `(r, j)`, its entry `j`. -/
theorem biasRows_apply (b : Arr Ideal S16) (r : Fin 10000) (j : Fin 16) : biasRows b (ix2 r j) = b (ix1 j) := by
  unfold biasRows
  rw [broadcastInDim_oneRow_apply]
  refine broadcastInDim_apply ![1] _ b (ix2 (0 : Fin 1) j) (ix1 j) fun a => ?_
  match a with
  | ⟨0, _⟩ =>
    show j.val = if (16 : ℕ) = 1 then 0 else j.val
    rw [if_neg (by decide)]

/-- `M · s + b` at `(r, j)`: row `r` of `M` against column `j` of `s`, plus `b j`. -/
theorem layerArr_apply (M : Arr Ideal S10000x10000) (s : Arr Ideal S10000x16) (b : Arr Ideal S16) (r : Fin 10000)
    (j : Fin 16) : layerArr M s b (ix2 r j) = (∑ n : Fin 10000, M (ix2 r n) * s (ix2 n j)) + b (ix1 j) := by
  unfold layerArr
  rw [addf_apply, biasRows_apply]
  exact congrArg (· + b (ix1 j))
    (Cert.Lib.dotGeneral_plain_apply dot_S10000x10000_S10000x16_S10000x16_1_0_0_1_n_n_wf none .single M s r j)

/-! ## The rectifier -/

/-- The leaky rectifier acts entry by entry. -/
theorem leakyArr_apply (h : Arr Ideal S10000x16) (i : S10000x16.Idx) : leakyArr h i = Cert.Gcn.leaky (h i) := by
  unfold leakyArr Cert.Gcn.leaky
  rw [select_apply, cmpf_apply, mulf_apply, broadcastInDim_scalar_apply, broadcastInDim_scalar_apply, constant_apply,
    constant_apply]
  rfl

/-! ## The row-wise log-softmax -/

/-- -∞ is neutral for the maximum. -/
theorem max_negInf (y : EReal) : max (Ideal.ofBits .f32 0xFF800000#32) y = y := by
  simp [Ideal.ofBits, Ideal.ieee]

/-- Each row's maximum is the fold of `max` from -∞ over the row's 16 entries. -/
theorem rowMaxArr_apply (z : Arr Ideal S10000x16) (r : Fin 10000) :
    rowMaxArr z (ix1 r) = Cert.Gcn.rowMax fun k => z (ix2 r k) := by
  have hR : (⟨2, ![10000, 16]⟩ : Shape).Reduces [1] (⟨1, ![10000]⟩ : Shape) := by decide
  unfold rowMaxArr Cert.Gcn.rowMax
  rw [maximumf_apply, broadcastInDim_scalar_apply, constant_apply, max_negInf,
    Host.reduce_eq_fold_single FloatOps.maximumf z _ reducesTo_S10000x16_S10000_d1 hR h_S_]
  have hf : (z ∘ hR.lift (ix1 r)) = fun k : Fin 16 => z (ix2 r k) :=
    funext fun k => congrArg z (Cert.Lib.lift_lastAxis2 hR r k)
  exact congrArg (fun f => Finset.fold max (Ideal.ofBits .f32 0xFF800000#32) f (Finset.univ : Finset (Fin 16))) hf

/-- A vector of one entry per row laid as a column reads, at `(r, u)`, its entry `r`. -/
theorem colArr_apply (v : Arr Ideal S10000) (r : Fin 10000) (u : Fin 1) : colArr v (ix2 r u) = v (ix1 r) := by
  unfold colArr
  refine broadcastInDim_apply ![0] _ v (ix2 r u) (ix1 r) fun a => ?_
  match a with
  | ⟨0, _⟩ =>
    show r.val = if (10000 : ℕ) = 1 then 0 else r.val
    rw [if_neg (by decide)]

/-- A column repeated along the 16 columns reads, at `(r, j)`, the column's entry `r`. -/
theorem spreadArr_apply (w : Arr Ideal S10000x1) (r : Fin 10000) (j : Fin 16) :
    spreadArr w (ix2 r j) = w (ix2 r (0 : Fin 1)) := by
  unfold spreadArr
  refine broadcastInDim_apply ![0, 1] _ w (ix2 r j) (ix2 r (0 : Fin 1)) fun a => ?_
  match a with
  | ⟨0, _⟩ =>
    show r.val = if (10000 : ℕ) = 1 then 0 else r.val
    rw [if_neg (by decide)]
  | ⟨1, _⟩ =>
    show (0 : ℕ) = if (1 : ℕ) = 1 then 0 else j.val
    rw [if_pos rfl]

/-- Each entry minus its row's maximum. -/
theorem shiftedArr_apply (z : Arr Ideal S10000x16) (r : Fin 10000) (j : Fin 16) :
    shiftedArr z (ix2 r j) = z (ix2 r j) - Cert.Gcn.rowMax fun k => z (ix2 r k) := by
  unfold shiftedArr
  rw [subf_apply, spreadArr_apply, colArr_apply, rowMaxArr_apply]

/-- Each row's sum of the exponentials of its shifted entries. -/
theorem sumExpArr_apply (z : Arr Ideal S10000x16) (r : Fin 10000) :
    sumExpArr z (ix1 r) = ∑ j' : Fin 16, Ideal.exp (z (ix2 r j') - Cert.Gcn.rowMax fun k => z (ix2 r k)) := by
  have hR : (⟨2, ![10000, 16]⟩ : Shape).Reduces [1] (⟨1, ![10000]⟩ : Shape) := by decide
  unfold sumExpArr
  rw [Cert.Lib.hostReduceAdd_rows _ _ reducesTo_S10000x16_S10000_d1 hR h_S_ r, constant_apply, Ideal.ofBits_zero_f32,
    zero_add]
  refine Finset.sum_congr rfl fun j' _ => ?_
  show Ideal.exp (shiftedArr z (ix2 r j')) = _
  rw [shiftedArr_apply]

/-- The row-wise log-softmax at `(r, j)`. -/
theorem logSoftmaxArr_apply (z : Arr Ideal S10000x16) (r : Fin 10000) (j : Fin 16) :
    logSoftmaxArr z (ix2 r j) = Cert.Gcn.logSoftmaxRow (fun k => z (ix2 r k)) j := by
  unfold logSoftmaxArr Cert.Gcn.logSoftmaxRow
  rw [subf_apply, shiftedArr_apply, spreadArr_apply]
  show _ - Ideal.log (colArr (sumExpArr z) (ix2 r (0 : Fin 1))) = _
  rw [colArr_apply, sumExpArr_apply]

/-! ## The network -/

/-- The hidden layer at `(r, k)`. -/
theorem hidden_apply (x : Arr Ideal S10000x128) (A : Arr Ideal S2x10000x10000) (W1 : Arr Ideal S128x16)
    (b1 : Arr Ideal S16) (r : Fin 10000) (k : Fin 16) :
    leakyArr (layerArr (adj0 A) (supportArr x W1) b1) (ix2 r k) = Cert.Gcn.hiddenOf A (Cert.Gcn.support x W1) b1 r k := by
  rw [leakyArr_apply, layerArr_apply]
  unfold Cert.Gcn.hiddenOf
  refine congrArg (fun t => Cert.Gcn.leaky (t + b1 (ix1 k))) (Finset.sum_congr rfl fun n _ => ?_)
  rw [adj0_apply, supportArr_apply]

/-- The second-layer support at `(r, j)`. -/
theorem support2_apply (x : Arr Ideal S10000x128) (A : Arr Ideal S2x10000x10000) (W1 : Arr Ideal S128x16)
    (b1 : Arr Ideal S16) (W2 : Arr Ideal S16x16) (r : Fin 10000) (j : Fin 16) :
    support2Arr (leakyArr (layerArr (adj0 A) (supportArr x W1) b1)) W2 (ix2 r j) = Cert.Gcn.support2 x A W1 b1 W2 r j := by
  rw [support2Arr_apply]
  unfold Cert.Gcn.support2 Cert.Gcn.support2Of
  exact Finset.sum_congr rfl fun k _ => by rw [hidden_apply]

/-- The logits at `(r, j)`. -/
theorem logits_apply (x : Arr Ideal S10000x128) (A : Arr Ideal S2x10000x10000) (W1 : Arr Ideal S128x16)
    (b1 : Arr Ideal S16) (W2 : Arr Ideal S16x16) (b2 : Arr Ideal S16) (r : Fin 10000) (j : Fin 16) :
    layerArr (adj1 A) (support2Arr (leakyArr (layerArr (adj0 A) (supportArr x W1) b1)) W2) b2 (ix2 r j)
      = Cert.Gcn.logitsOf A (Cert.Gcn.support2 x A W1 b1 W2) b2 r j := by
  rw [layerArr_apply]
  unfold Cert.Gcn.logitsOf
  refine congrArg (· + b2 (ix1 j)) (Finset.sum_congr rfl fun n _ => ?_)
  rw [adj1_apply, support2_apply]

/-- The reference's composed array is the specified network. -/
theorem refOut_eq (x : Arr Ideal S10000x128) (A : Arr Ideal S2x10000x10000) (W1 : Arr Ideal S128x16) (b1 : Arr Ideal S16)
    (W2 : Arr Ideal S16x16) (b2 : Arr Ideal S16) :
    refOut x A W1 b1 W2 b2 = Cert.Gcn.outArr x A W1 b1 W2 b2 := by
  funext i
  obtain ⟨r, j, rfl⟩ : ∃ (r : Fin 10000) (j : Fin 16), i = ix2 r j := ⟨i 0, i 1, eq_ix2 i⟩
  unfold refOut Cert.Gcn.outArr
  rw [Cert.Gcn.asMat_apply, logSoftmaxArr_apply]
  unfold Cert.Gcn.out
  exact congrArg (fun h => Cert.Gcn.logSoftmaxRow h j) (funext fun k => logits_apply x A W1 b1 W2 b2 r k)

end Cert.Gcn.Ref

end
-- ==== Proof.RefFinal.lean ====
/-
  The reference's run, with its result stated as the specified network.

  Every weakly fair execution of the reference's entry function, at the extended reals, from any memory with zero
  counters, terminates; the result buffer then holds the two-layer graph convolution with its row-wise log-softmax
  (`Cert.Gcn.outArr`) of the six argument arrays as they were at the start, and the six arguments are unchanged. This is
  the run of the straight line of operations, whose result is the stages composed, followed by the reading of that
  composition index by index.
-/
import proofs.«121101_g50766513438939_cont_8to1c4_522_2_alg».proof.Proof.RefRun
import proofs.«121101_g50766513438939_cont_8to1c4_522_2_alg».proof.Proof.RefValue

noncomputable section

namespace Cert.Gcn.Ref

open Cert.ReferenceIdeal Cert.ReferenceIdeal.Gen Idealize.ShloMosaic Idealize.ShloMosaic.TcCoe Idealize.SL.Sem

/-- At the extended reals, on every device, from any memory with zero counters: every weakly fair execution of the
    reference's entry function terminates with the result buffer at the specified network of the arguments' launch
    contents, and the six arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
          = Cert.Gcn.outArr (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (refOut_eq _ _ _ _ _ _), (h c).2⟩) (run (F := Ideal) m ρ)

end Cert.Gcn.Ref

end
-- ==== Proof.Claims.lean ====
/-
  The reference's frame and the algebraic claim. The reference's run ends with its result at the two-layer graph
  convolution of its six arguments (the specification), the arguments unchanged; the idealized kernel's run ends with its
  result array at the same function of ITS arguments; run from memories that agree on the arguments, the two results are
  one array.
-/
import proofs.«121101_g50766513438939_cont_8to1c4_522_2_alg».proof.Defs
import proofs.«121101_g50766513438939_cont_8to1c4_522_2_alg».proof.Proof.Gen.KernelIdeal
import proofs.«121101_g50766513438939_cont_8to1c4_522_2_alg».proof.Proof.Gen.ReferenceIdeal
import proofs.«121101_g50766513438939_cont_8to1c4_522_2_alg».proof.Proof.Gen.Pre_finite_inputs
import proofs.«121101_g50766513438939_cont_8to1c4_522_2_alg».proof.Proof.OnIdeal.Result
import proofs.«121101_g50766513438939_cont_8to1c4_522_2_alg».proof.Proof.RefFinal

noncomputable section

namespace Cert.Proof.Values

open Idealize.ShloMosaic Idealize.SL.Sem

theorem frame_ri : Cert.frame_ReferenceIdeal := fun m ρ _ =>
  (θ_run (Cert.ReferenceIdeal.defs (F := Ideal)) _ _).mono (fun _ h c => (h c).2) (Cert.Gcn.Ref.run (F := Ideal) m ρ)

theorem algebraic : Cert.algebraic_KernelIdeal_ReferenceIdeal := by
  intro m ρ m' ρ' _ hagree
  refine ⟨_, (θ_run (Cert.KernelIdeal.defs (F := Ideal)) _ _).mono
    (fun _ h c => ⟨(h c).1.trans (Cert.KernelIdeal.Result.result m c), (h c).2⟩) (Cert.KernelIdeal.Run.run (F := Ideal) m ρ), ?_⟩
  refine (θ_run (Cert.ReferenceIdeal.defs (F := Ideal)) _ _).mono (fun _ h c => ⟨(h c).1.trans ?_, (h c).2⟩)
    (Cert.Gcn.Ref.run_spec m' ρ')
  rw [(hagree c).1, (hagree c).2.1, (hagree c).2.2.1, (hagree c).2.2.2.1, (hagree c).2.2.2.2.1, (hagree c).2.2.2.2.2]

end Cert.Proof.Values

end
-- ==== Proof.lean ====
/-
  A two-layer graph convolution with dense adjacency matrices, as two pipelined kernel regions, against its plain
  reference: out = log_softmax(A₁ · (leaky(A₀ · (x · W1) + b1) · W2) + b2), row by row.

  The kernel streams each adjacency matrix once, 400 rows per grid point. Its first region keeps x · W1 in a scratch buffer
  filled at the first grid point and read at every later one; each point writes one block of
  leaky(A₀-block · scratch + b1) · W2. Its second region writes one block of the row-wise log-softmax of
  A₁-block · support2 + b2 per point. On the extended reals every product is the plain row-by-column sum on both sides, the
  rectifier, the row maximum, the exponentials, their sum and the logarithm are the same operations in the same order, so
  the two programs compute one function of the six arguments, entry by entry; no law that needs finiteness is used, and
  the precondition is never opened.

  Frames.lean has the kernel's two frames (its run at either reading of floats, with the result dropped) and the trivial
  idealization claim; Claims.lean has the reference's frame and the algebraic claim: both runs end at the specification
  of Spec.lean.
-/
import proofs.«121101_g50766513438939_cont_8to1c4_522_2_alg».proof.Defs
import proofs.«121101_g50766513438939_cont_8to1c4_522_2_alg».proof.Proof.Gen.Kernel
import proofs.«121101_g50766513438939_cont_8to1c4_522_2_alg».proof.Proof.Gen.KernelIdeal
import proofs.«121101_g50766513438939_cont_8to1c4_522_2_alg».proof.Proof.Gen.ReferenceIdeal
import proofs.«121101_g50766513438939_cont_8to1c4_522_2_alg».proof.Proof.Gen.Pre_finite_inputs
import proofs.«121101_g50766513438939_cont_8to1c4_522_2_alg».proof.Proof.Frames
import proofs.«121101_g50766513438939_cont_8to1c4_522_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_k, Frames.frame_ki, Values.frame_ri, Frames.preserves, Values.algebraic⟩

end Cert.Proof

end
